-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S50000x64 : Shape := ⟨2, ![50000, 64]⟩
abbrev S800000 : Shape := ⟨1, ![800000]⟩
abbrev S96x96 : Shape := ⟨2, ![96, 96]⟩
abbrev S96 : Shape := ⟨1, ![96]⟩
abbrev S96x64 : Shape := ⟨2, ![96, 64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_

variable [Facts]

def fn_part2 {F : FTy → Type} [FloatOps F] (main_arg9 : FVec F S96 .f32) (main_arg10 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  main_v43

def fn_part1 {F : FTy → Type} [FloatOps F] (main_arg6 : FVec F S96x96 .f32) (main_arg7 : FVec F S96 .f32) (main_arg8 : FVec F S96x64 .f32) (main_arg9 : FVec F S96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x64 .f32 := Host.absf main_arg8
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg9 main_arg10 main_v33

def fn {F : FTy → Type} [FloatOps F] (main_arg0 : FVec F S50000x96 .f32) (main_arg1 : FVec F S50000x64 .f32) (main_arg2 : IVec S800000 32) (main_arg3 : IVec S800000 32) (main_arg4 : FVec F S96x96 .f32) (main_arg5 : FVec F S96 .f32) (main_arg6 : FVec F S96x96 .f32) (main_arg7 : FVec F S96 .f32) (main_arg8 : FVec F S96x64 .f32) (main_arg9 : FVec F S96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_v13 main_v16
-- ==== Kernel.lean ====
abbrev S50000x96 : Shape := ⟨2, ![50000, 96]⟩
abbrev S50000x64 : Shape := ⟨2, ![50000, 64]⟩
abbrev S800000 : Shape := ⟨1, ![800000]⟩
abbrev S96x96 : Shape := ⟨2, ![96, 96]⟩
abbrev S96 : Shape := ⟨1, ![96]⟩
abbrev S96x64 : Shape := ⟨2, ![96, 64]⟩
abbrev S64x96 : Shape := ⟨2, ![64, 96]⟩
abbrev S1x96 : Shape := ⟨2, ![1, 96]⟩
abbrev S5000x96 : Shape := ⟨2, ![5000, 96]⟩
abbrev S5000x64 : Shape := ⟨2, ![5000, 64]⟩
abbrev S_ : Shape := ⟨0, ![]⟩
abbrev S800000x1 : Shape := ⟨2, ![800000, 1]⟩
abbrev S800000x96 : Shape := ⟨2, ![800000, 96]⟩

abbrev nBuf : Space → Nat
  | .hbm => 71
  | .vmem => 27
  | .smem => 0
  | _ => 0

abbrev bufTy : (tb : Table) → Fin (tcTables nBuf tb) → BufTy
  | .hbm, ⟨0, _⟩ => ⟨S50000x96, .f32⟩
  | .hbm, ⟨1, _⟩ => ⟨S50000x64, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S96, .f32⟩
  | .hbm, ⟨10, _⟩ => ⟨S96, .f32⟩
  | .hbm, ⟨11, _⟩ => ⟨S96x96, .f32⟩
  | .hbm, ⟨12, _⟩ => ⟨S96x96, .f32⟩
  | .hbm, ⟨13, _⟩ => ⟨S64x96, .f32⟩
  | .hbm, ⟨14, _⟩ => ⟨S1x96, .f32⟩
  | .hbm, ⟨15, _⟩ => ⟨S1x96, .f32⟩
  | .hbm, ⟨16, _⟩ => ⟨S50000x96, .f32⟩
  | .hbm, ⟨17, _⟩ => ⟨S50000x96, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x96, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S800000x96, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x96, .f32⟩
  | .hbm, ⟨46, _⟩ => ⟨S800000x96, .f32⟩
  | .hbm, ⟨47, _⟩ => ⟨S_, .f32⟩
  | .hbm, ⟨48, _⟩ => ⟨S50000x96, .f32⟩
  | .hbm, ⟨49, _⟩ => ⟨S800000x1, .i32⟩
  | .hbm, ⟨50, _⟩ => ⟨S50000x96, .f32⟩
  | .hbm, ⟨51, _⟩ => ⟨S50000x96, .f32⟩
  | .hbm, ⟨52, _⟩ => ⟨S_, .f32⟩
  | .hbm, ⟨53, _⟩ => ⟨S96, .f32⟩
  | .hbm, ⟨54, _⟩ => ⟨S_, .f32⟩
  | .hbm, ⟨55, _⟩ => ⟨S96, .f32⟩
  | .hbm, ⟨56, _⟩ => ⟨S96, .f32⟩
  | .hbm, ⟨57, _⟩ => ⟨S1x96, .f32⟩
  | .hbm, ⟨58, _⟩ => ⟨S50000x96, .f32⟩
  | .hbm, ⟨59, _⟩ => ⟨S50000x96, .f32⟩
  | .hbm, ⟨60, _⟩ => ⟨S50000x96, .f32⟩
  | .hbm, ⟨61, _⟩ => ⟨S_, .f32⟩
  | .hbm, ⟨62, _⟩ => ⟨S96, .f32⟩
  | .hbm, ⟨63, _⟩ => ⟨S_, .f32⟩
  | .hbm, ⟨64, _⟩ => ⟨S96, .f32⟩
  | .hbm, ⟨65, _⟩ => ⟨S96, .f32⟩
  | .hbm, ⟨66, _⟩ => ⟨S1x96, .f32⟩
  | .hbm, ⟨67, _⟩ => ⟨S1x96, .f32⟩
  | .hbm, ⟨68, _⟩ => ⟨S1x96, .f32⟩
  | .hbm, ⟨69, _⟩ => ⟨S1x96, .f32⟩
  | .hbm, ⟨70, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x64, .f32⟩
  | .local _ .vmem, ⟨3, _⟩ => ⟨S5000x64, .f32⟩
  | .local _ .vmem, ⟨4, _⟩ => ⟨S96x96, .f32⟩
  | .local _ .vmem, ⟨5, _⟩ => ⟨S1x96, .f32⟩
  | .local _ .vmem, ⟨6, _⟩ => ⟨S64x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S96x96, .f32⟩
  | .local _ .vmem, ⟨16, _⟩ => ⟨S1x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S5000x96, .f32⟩
  | .local _ .vmem, ⟨26, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S96x96_S96x96_1_0 : S96x96.Transposes [1, 0] S96x96
  transposes_S96x64_S64x96_1_0 : S96x64.Transposes [1, 0] S64x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x64_S5000x64_0_0 : ∀ a, (![0, 0] : Fin 2 → Nat) a + S5000x64.size a ≤ S5000x64.size a
  h_S5000x64 : 0 < S5000x64.numel
  inb_S64x96_S64x96_0_0 : ∀ a, (![0, 0] : Fin 2 → Nat) a + S64x96.size a ≤ S64x96.size a
  h_S64x96 : 0 < S64x96.numel
  shapeCasts_S64x96_S64x96 : S64x96.ShapeCasts S64x96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S5000x96_S5000x96 : S5000x96.ShapeCasts S5000x96
  reducesTo_S50000x96_S96_d0 : S50000x96.ReducesTo [0] S96
  h_S_ : 0 < S_.numel
  bcast_S_S96 : S_.BroadcastsInDim S96 (![] : Fin 0 → Fin S96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S5000x96_S96x96_S5000x96_1_0_0_1_n_n_wf : DotDims.WF S5000x96 S96x96 S5000x96 [1] [0] [0] [1] [] []
  dot_S5000x64_S64x96_S5000x96_1_0_0_1_n_n_wf : DotDims.WF S5000x64 S64x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x96.size a ≤ S64x96.size a
  hwx0_4 : ∀ i : grid0.Coords, EltTy.bits .f32 = 32 ∨ (Rect.block (s := S64x96) S64x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S5000x96.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x96 : Shape := ⟨2, ![50000, 96]⟩
abbrev S50000x64 : Shape := ⟨2, ![50000, 64]⟩
abbrev S800000 : Shape := ⟨1, ![800000]⟩
abbrev S96x96 : Shape := ⟨2, ![96, 96]⟩
abbrev S96 : Shape := ⟨1, ![96]⟩
abbrev S96x64 : Shape := ⟨2, ![96, 64]⟩
abbrev S_ : Shape := ⟨0, ![]⟩
abbrev S800000x1 : Shape := ⟨2, ![800000, 1]⟩
abbrev S800000x64 : Shape := ⟨2, ![800000, 64]⟩
abbrev S64x96 : Shape := ⟨2, ![64, 96]⟩
abbrev S800000x96 : Shape := ⟨2, ![800000, 96]⟩
abbrev S1x96 : Shape := ⟨2, ![1, 96]⟩

abbrev nBuf : Space → Nat
  | .hbm => 93
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x64, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S96, .f32⟩
  | .hbm, ⟨10, _⟩ => ⟨S96, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S64x96, .f32⟩
  | .hbm, ⟨31, _⟩ => ⟨S800000x96, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x96, .f32⟩
  | .hbm, ⟨41, _⟩ => ⟨S96x96, .f32⟩
  | .hbm, ⟨42, _⟩ => ⟨S800000x96, .f32⟩
  | .hbm, ⟨43, _⟩ => ⟨S1x96, .f32⟩
  | .hbm, ⟨44, _⟩ => ⟨S800000x96, .f32⟩
  | .hbm, ⟨45, _⟩ => ⟨S800000x96, .f32⟩
  | .hbm, ⟨46, _⟩ => ⟨S_, .f32⟩
  | .hbm, ⟨47, _⟩ => ⟨S800000x96, .f32⟩
  | .hbm, ⟨48, _⟩ => ⟨S800000x96, .f32⟩
  | .hbm, ⟨49, _⟩ => ⟨S800000x96, .f32⟩
  | .hbm, ⟨50, _⟩ => ⟨S_, .f32⟩
  | .hbm, ⟨51, _⟩ => ⟨S50000x96, .f32⟩
  | .hbm, ⟨52, _⟩ => ⟨S800000x1, .i32⟩
  | .hbm, ⟨53, _⟩ => ⟨S50000x96, .f32⟩
  | .hbm, ⟨54, _⟩ => ⟨S96x96, .f32⟩
  | .hbm, ⟨55, _⟩ => ⟨S50000x96, .f32⟩
  | .hbm, ⟨56, _⟩ => ⟨S1x96, .f32⟩
  | .hbm, ⟨57, _⟩ => ⟨S50000x96, .f32⟩
  | .hbm, ⟨58, _⟩ => ⟨S50000x96, .f32⟩
  | .hbm, ⟨59, _⟩ => ⟨S50000x96, .f32⟩
  | .hbm, ⟨60, _⟩ => ⟨S_, .f32⟩
  | .hbm, ⟨61, _⟩ => ⟨S50000x96, .f32⟩
  | .hbm, ⟨62, _⟩ => ⟨S50000x96, .f32⟩
  | .hbm, ⟨63, _⟩ => ⟨S_, .f32⟩
  | .hbm, ⟨64, _⟩ => ⟨S96, .f32⟩
  | .hbm, ⟨65, _⟩ => ⟨S_, .f32⟩
  | .hbm, ⟨66, _⟩ => ⟨S96, .f32⟩
  | .hbm, ⟨67, _⟩ => ⟨S96, .f32⟩
  | .hbm, ⟨68, _⟩ => ⟨S1x96, .f32⟩
  | .hbm, ⟨69, _⟩ => ⟨S50000x96, .f32⟩
  | .hbm, ⟨70, _⟩ => ⟨S50000x96, .f32⟩
  | .hbm, ⟨71, _⟩ => ⟨S50000x96, .f32⟩
  | .hbm, ⟨72, _⟩ => ⟨S_, .f32⟩
  | .hbm, ⟨73, _⟩ => ⟨S96, .f32⟩
  | .hbm, ⟨74, _⟩ => ⟨S_, .f32⟩
  | .hbm, ⟨75, _⟩ => ⟨S96, .f32⟩
  | .hbm, ⟨76, _⟩ => ⟨S96, .f32⟩
  | .hbm, ⟨77, _⟩ => ⟨S1x96, .f32⟩
  | .hbm, ⟨78, _⟩ => ⟨S50000x96, .f32⟩
  | .hbm, ⟨79, _⟩ => ⟨S50000x96, .f32⟩
  | .hbm, ⟨80, _⟩ => ⟨S_, .f32⟩
  | .hbm, ⟨81, _⟩ => ⟨S96, .f32⟩
  | .hbm, ⟨82, _⟩ => ⟨S96, .f32⟩
  | .hbm, ⟨83, _⟩ => ⟨S96, .f32⟩
  | .hbm, ⟨84, _⟩ => ⟨S1x96, .f32⟩
  | .hbm, ⟨85, _⟩ => ⟨S50000x96, .f32⟩
  | .hbm, ⟨86, _⟩ => ⟨S50000x96, .f32⟩
  | .hbm, ⟨87, _⟩ => ⟨S1x96, .f32⟩
  | .hbm, ⟨88, _⟩ => ⟨S50000x96, .f32⟩
  | .hbm, ⟨89, _⟩ => ⟨S50000x96, .f32⟩
  | .hbm, ⟨90, _⟩ => ⟨S1x96, .f32⟩
  | .hbm, ⟨91, _⟩ => ⟨S50000x96, .f32⟩
  | .hbm, ⟨92, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S96x64_S64x96_1_0 : S96x64.Transposes [1, 0] S64x96
  transposes_S96x96_S96x96_1_0 : S96x96.Transposes [1, 0] S96x96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  gather_S50000x64_S800000x1_S800000x64_1_0_n_n_0_1_164_wf : GatherDims.WF S50000x64 S800000x1 S800000x64 [1] [0] [] [0] [] 1 ![1, 64]
  dot_S800000x64_S64x96_S800000x96_1_0_0_1_n_n_wf : DotDims.WF S800000x64 S64x96 S800000x96 [1] [0] [0] [1] [] []
  gather_S50000x96_S800000x1_S800000x96_1_0_n_n_0_1_196_wf : GatherDims.WF S50000x96 S800000x1 S800000x96 [1] [0] [] [0] [] 1 ![1, 96]
  dot_S800000x96_S96x96_S800000x96_1_0_0_1_n_n_wf : DotDims.WF S800000x96 S96x96 S800000x96 [1] [0] [0] [1] [] []
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x96_S800000x96_1_0_0_1_n_n : DotDims S800000x64 S64x96 S800000x96 where
  lhsContracting := [1]
  rhsContracting := [0]
  lhsNonContracting := [0]
  rhsNonContracting := [1]
  lhsBatch := []
  rhsBatch := []
  wf := dot_S800000x64_S64x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.KRun.lean ====
/-
  The idealized kernel program, run: three pipelined regions among stretches of host operations.

  Every weakly fair execution from any memory with zero counters terminates without a fault; at the end the result
  buffer holds what the last region's write-backs leave in it (the contents at the last segment boundary, `W6`),
  and every argument array is as launched. The contents at each boundary are a fold through the program: a
  stretch of host operations applied to the previous contents, or a region's arrays at what its pipeline leaves.
  The later modules read that fold at the result buffer, one boundary at a time.
-/
import proofs.«107626_j56684978372724_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.Spec.lean ====
/-
  A graph layer on 50000 nodes with 96 features, written entry by entry on the extended reals.

  Every node row `n` and output feature `o`:
  * `affine x wT b (n, o) = ∑ k, x (n, k) · wT (k, o) + b (o)` — a linear layer whose weights are kept one column
    per output feature;
  * `product x wT (n, o) = ∑ k, x (n, k) · wT (k, o)` — the same without a bias;
  * `convNode` — the linear layer followed by the maximum with zero;
  * `selfRelu h x wT b (n, o) = max (h (n, o) + affine x wT b (n, o)) 0` — the aggregated messages plus the node's
    own linear layer, then the maximum with zero;
  * `normalize p μ v g b (n, o) = (p (n, o) − μ o) · rsqrt (v o + ε) · g o + b o` — a batch normalisation from a
    given mean and variance per feature, ε the f32 word 0x3727C5AC.
  * `node I e` — the node an edge `e` points at: the `e`-th entry of a column of node numbers, read as a signed
    integer and kept inside 0 … 49999;
  * `edgeMsgNode a c I J (e, o) = (a (I e, o) − a (J e, o)) · c (I e, o)` — an edge's message from per-node arrays;
  * `edgeMsg` — the same message computed per edge from the gathered rows: the difference of the two end nodes'
    embedding rows times the attention weights, times the rectified linear layer of the source node's features.
  `rowVec` reads a one-row matrix as a vector. The zero and ε are kept as their f32 words: the same words on both sides
  of every equation, never evaluated.
-/
import Idealize.ShloMosaic.PureOps.Ideal.Laws
import Idealize.ShloMosaic.Lib.ValueIdx

noncomputable section

namespace Cert.GraphLayer

open Idealize.ShloMosaic Idealize.ShloMosaic.ValueIdx

/-- The f32 zero word on the extended reals. -/
def zeroW : EReal := Ideal.ofBits .f32 0x00000000#32

/-- The ε of the normalisation, as its f32 word. -/
def epsW : EReal := Ideal.ofBits .f32 0x3727C5AC#32

/-- `∑ k, x (n, k) · wT (k, o)`. -/
def product {N K M : Nat} (x : (⟨2, ![N, K]⟩ : Shape).Idx → EReal) (wT : (⟨2, ![K, M]⟩ : Shape).Idx → EReal) :
    (⟨2, ![N, M]⟩ : Shape).Idx → EReal :=
  fun i => ∑ k : Fin K, x (ix2 (i 0 : Fin N) k) * wT (ix2 k (i 1 : Fin M))

/-- `∑ k, x (n, k) · wT (k, o) + b o`. -/
def affine {N K M : Nat} (x : (⟨2, ![N, K]⟩ : Shape).Idx → EReal) (wT : (⟨2, ![K, M]⟩ : Shape).Idx → EReal)
    (b : (⟨1, ![M]⟩ : Shape).Idx → EReal) : (⟨2, ![N, M]⟩ : Shape).Idx → EReal :=
  fun i => (∑ k : Fin K, x (ix2 (i 0 : Fin N) k) * wT (ix2 k (i 1 : Fin M))) + b (ix1 (i 1 : Fin M))

/-- The linear layer followed by the maximum with zero. -/
def convNode {N K M : Nat} (x : (⟨2, ![N, K]⟩ : Shape).Idx → EReal) (wT : (⟨2, ![K, M]⟩ : Shape).Idx → EReal)
    (b : (⟨1, ![M]⟩ : Shape).Idx → EReal) : (⟨2, ![N, M]⟩ : Shape).Idx → EReal :=
  fun i => max (affine x wT b i) zeroW

/-- The aggregated messages plus the node's own linear layer, then the maximum with zero. -/
def selfRelu {N K M : Nat} (h : (⟨2, ![N, M]⟩ : Shape).Idx → EReal) (x : (⟨2, ![N, K]⟩ : Shape).Idx → EReal)
    (wT : (⟨2, ![K, M]⟩ : Shape).Idx → EReal) (b : (⟨1, ![M]⟩ : Shape).Idx → EReal) :
    (⟨2, ![N, M]⟩ : Shape).Idx → EReal :=
  fun i => max (h i + affine x wT b i) zeroW

/-- Batch normalisation from a given mean `μ` and variance `v` per feature, scale `g` and shift `b`. -/
def normalize {N M : Nat} (p : (⟨2, ![N, M]⟩ : Shape).Idx → EReal) (μ v g b : (⟨1, ![M]⟩ : Shape).Idx → EReal) :
    (⟨2, ![N, M]⟩ : Shape).Idx → EReal :=
  fun i => (p i - μ (ix1 (i 1 : Fin M))) * Ideal.rsqrt (v (ix1 (i 1 : Fin M)) + epsW) * g (ix1 (i 1 : Fin M))
    + b (ix1 (i 1 : Fin M))

/-- A one-row matrix read as a vector. -/
def rowVec {M : Nat} (r : (⟨2, ![1, M]⟩ : Shape).Idx → EReal) : (⟨1, ![M]⟩ : Shape).Idx → EReal :=
  fun j => r (ix2 (0 : Fin 1) (j 0 : Fin M))

/-- The node an edge points at: its entry in a column of node numbers, read signed and kept inside 0 … 49999. -/
def node (I : IVec ⟨2, ![800000, 1]⟩ 32) (e : Fin 800000) : Fin 50000 :=
  ⟨min (I (ix2 e (0 : Fin 1))).toInt.toNat (50000 - 1), by omega⟩

/-- An edge's message from per-node arrays `a` (attention) and `c` (rectified linear layer). -/
def edgeMsgNode (a c : (⟨2, ![50000, 96]⟩ : Shape).Idx → EReal) (I J : IVec ⟨2, ![800000, 1]⟩ 32) :
    (⟨2, ![800000, 96]⟩ : Shape).Idx → EReal :=
  fun i => (a (ix2 (node I (i 0 : Fin 800000)) (i 1 : Fin 96)) - a (ix2 (node J (i 0 : Fin 800000)) (i 1 : Fin 96)))
    * c (ix2 (node I (i 0 : Fin 800000)) (i 1 : Fin 96))

/-- The same message computed per edge from the gathered rows. -/
def edgeMsg (x0 : (⟨2, ![50000, 96]⟩ : Shape).Idx → EReal) (x1 : (⟨2, ![50000, 64]⟩ : Shape).Idx → EReal)
    (waT : (⟨2, ![64, 96]⟩ : Shape).Idx → EReal) (wcT : (⟨2, ![96, 96]⟩ : Shape).Idx → EReal)
    (b : (⟨1, ![96]⟩ : Shape).Idx → EReal) (I J : IVec ⟨2, ![800000, 1]⟩ 32) :
    (⟨2, ![800000, 96]⟩ : Shape).Idx → EReal :=
  fun i => (∑ k : Fin 64, (x1 (ix2 (node I (i 0 : Fin 800000)) k) - x1 (ix2 (node J (i 0 : Fin 800000)) k))
      * waT (ix2 k (i 1 : Fin 96)))
    * max ((∑ k : Fin 96, x0 (ix2 (node I (i 0 : Fin 800000)) k) * wcT (ix2 k (i 1 : Fin 96))) + b (ix1 (i 1 : Fin 96))) zeroW

end Cert.GraphLayer

end
-- ==== Proof.Shared.lean ====
/-
  The host operations the two programs share, each named once, over the extended reals.

  Both programs turn the edge lists into columns of node numbers in the same way (`rowIdx`: a negative number is
  first moved up by 50000; `colIdx`: the list as a column), add the edge messages into their destination nodes
  (`aggregate`: a scatter-add into zeros), and take a per-feature mean and variance over the 50000 nodes
  (`meanOf`, `varOf`: a sum down the rows divided by 50000; the variance from the squared differences to the mean,
  the mean repeated down the rows by `spread`). `layerOut` is the layer's result from the edge messages: aggregate,
  add the node's own linear layer and rectify, then normalise with that batch's own mean and variance.
  None of these is opened anywhere: both programs apply the same operations to values that are shown equal.
-/
import proofs.«107626_j56684978372724_2_alg».proof.Proof.Gen.ReferenceIdeal
import proofs.«107626_j56684978372724_2_alg».proof.Proof.Spec

noncomputable section

namespace Cert.GraphLayer

open Idealize.ShloMosaic Idealize.ShloMosaic.ValueIdx Cert.ReferenceIdeal Cert.ReferenceIdeal.Gen

/-- An edge list as a column of node numbers, a negative number first moved up by 50000. -/
def rowIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- An edge list as a column of node numbers, as it is. -/
def colIdx (x : IVec S800000 32) : IVec S800000x1 32 :=
  broadcastInDim S800000x1 ![0] bcast_S800000_S800000x1_0 x

/-- The edge messages added into their destination nodes, from zeros. -/
def aggregate (I : IVec S800000x1 32) (u : FVec Ideal S800000x96 .f32) : FVec Ideal S50000x96 .f32 :=
  Host.scatterAdd scatter_S50000x96_S800000x1_S800000x96_1_0_0_1
    (broadcastInDim S50000x96 ![] bcast_S_S50000x96 (constant (F := Ideal) S_ .f32 0x00000000#32)) I u

/-- A per-feature vector repeated down the 50000 rows. -/
def spread (v : FVec Ideal S96 .f32) : FVec Ideal S50000x96 .f32 :=
  broadcastInDim S50000x96 ![0, 1] bcast_S1x96_S50000x96_0_1 (broadcastInDim S1x96 ![1] bcast_S96_S1x96_1 v)

/-- The per-feature mean over the 50000 rows. -/
def meanOf (p : FVec Ideal S50000x96 .f32) : FVec Ideal S96 .f32 :=
  Host.divf (Host.reduceAdd p (constant (F := Ideal) S_ .f32 0x00000000#32) reducesTo_S50000x96_S96_d0 h_S_)
    (broadcastInDim S96 ![] bcast_S_S96 (constant (F := Ideal) S_ .f32 0x47435000#32))

/-- The per-feature (biased) variance over the 50000 rows. -/
def varOf (p : FVec Ideal S50000x96 .f32) : FVec Ideal S96 .f32 :=
  Host.divf (Host.reduceAdd (mulf (subf p (spread (meanOf p))) (subf p (spread (meanOf p))))
      (constant (F := Ideal) S_ .f32 0x00000000#32) reducesTo_S50000x96_S96_d0 h_S_)
    (broadcastInDim S96 ![] bcast_S_S96 (constant (F := Ideal) S_ .f32 0x47435000#32))

/-- The layer's result from the edge messages `msg`. -/
def layerOut (x0 : FVec Ideal S50000x96 .f32) (x3 : IVec S800000 32) (x6 : FVec Ideal S96x96 .f32)
    (x7 x9 x10 : FVec Ideal S96 .f32) (msg : FVec Ideal S800000x96 .f32) : FVec Ideal S50000x96 .f32 :=
  normalize (selfRelu (aggregate (colIdx x3) msg) x0 (transpose S96x96 [1, 0] x6 transposes_S96x96_S96x96_1_0) x7)
    (meanOf (selfRelu (aggregate (colIdx x3) msg) x0 (transpose S96x96 [1, 0] x6 transposes_S96x96_S96x96_1_0) x7))
    (varOf (selfRelu (aggregate (colIdx x3) msg) x0 (transpose S96x96 [1, 0] x6 transposes_S96x96_S96x96_1_0) x7))
    x9 x10

end Cert.GraphLayer

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«107626_j56684978372724_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«107626_j56684978372724_2_alg».proof.Proof.LibRowsTimes
import proofs.«107626_j56684978372724_2_alg».proof.Proof.LibRowsCols
import proofs.«107626_j56684978372724_2_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.RegionBlocks.lean ====
/-
  The bodies of the node-transform and self layers read at one row p and one feature j of a 5000-row block.

  Each body multiplies the block by a whole weight array on the matrix unit (into a zero accumulator, operands cast to
  bf16: a cast is the identity on the extended reals), so its entry at (p, j) is ∑ k, x (p, k) · w (k, j); a [1, 96]
  bias repeated down the rows adds b (0, j); the rectifier is the maximum with the f32 zero word. The two contraction
  records are "rows times columns": one contracted axis, left index (row, k), right index (k, column).
-/
import proofs.«107626_j56684978372724_2_alg».proof.Proof.Gen.KernelIdeal.Frame
import proofs.«107626_j56684978372724_2_alg».proof.Proof.Spec
import proofs.«107626_j56684978372724_2_alg».proof.Proof.LibRowLayers
noncomputable section
namespace Cert.KernelIdeal.Regions
open Idealize.ShloMosaic Idealize.ShloMosaic.TcCoe Idealize.SL.Sem Idealize.ShloMosaic.ValueIdx
open Cert.KernelIdeal Cert.KernelIdeal.Gen Cert.GraphLayer

/-- The zero offsets of a whole-block access. -/
theorem blk_hz : (![0, 0] : Fin 2 → Nat) = fun _ => 0 := funext fun a => by fin_cases a <;> rfl

/-- The [5000, 64] × [64, 96] contraction is rows times columns. -/
theorem rowsCols_64 : Cert.Dense.RowsCols dot_S5000x64_S64x96_S5000x96_1_0_0_1_n_n where
  rank := rfl
  size := rfl
  l0 := fun _ _ => rfl
  l1 := fun _ _ => rfl
  r0 := fun _ _ => rfl
  r1 := fun _ _ => rfl

/-- The [5000, 96] × [96, 96] contraction is rows times columns. -/
theorem rowsCols_96 : Cert.Dense.RowsCols dot_S5000x96_S96x96_S5000x96_1_0_0_1_n_n where
  rank := rfl
  size := rfl
  l0 := fun _ _ => rfl
  l1 := fun _ _ => rfl
  r0 := fun _ _ => rfl
  r1 := fun _ _ => rfl

/-- The attention product's body at row p, feature j: ∑ k, x (p, k) · w (k, j). -/
theorem att_payload (x : Vec Ideal S5000x64 .f32) (w : Vec Ideal S64x96 .f32) (p : Fin 5000) (j : Fin 96) :
    k0_pay2 x w (ix2 p j) = ∑ k : Fin 64, x (ix2 p k) * w (ix2 k j) := by
  unfold k0_pay2
  rw [shapeCast_self]
  exact Cert.Dense.matmul_zero_apply rowsCols_64 none _ _ (ix2 p j)

/-- The linear layer with rectifier at row p, feature j: max (∑ k, x (p, k) · w (k, j) + b (0, j)) 0. -/
theorem conv_payload (x : Vec Ideal S5000x96 .f32) (w : Vec Ideal S96x96 .f32) (b : Vec Ideal S1x96 .f32)
    (p : Fin 5000) (j : Fin 96) :
    k0_pay1 x w b (ix2 p j) = max ((∑ k : Fin 96, x (ix2 p k) * w (ix2 k j)) + b (ix2 (0 : Fin 1) j)) zeroW := by
  unfold k0_pay1
  refine (maximumf_apply _ _ _).trans ?_
  refine congrArg₂ max ?_ rfl
  refine (addf_apply _ _ _).trans ?_
  refine congrArg₂ (· + ·) ?_ (Cert.RowLayers.bias_apply b _ _ p j)
  rw [shapeCast_self]
  exact Cert.Dense.matmul_zero_apply rowsCols_96 none _ _ (ix2 p j)

/-- The self layer at row p, feature j: max (h (p, j) + (∑ k, x (p, k) · w (k, j) + b (0, j))) 0. -/
theorem self_payload (x : Vec Ideal S5000x96 .f32) (w : Vec Ideal S96x96 .f32) (b : Vec Ideal S1x96 .f32)
    (h : Vec Ideal S5000x96 .f32) (p : Fin 5000) (j : Fin 96) :
    k1_pay1 x w b h (ix2 p j)
      = max (h (ix2 p j) + ((∑ k : Fin 96, x (ix2 p k) * w (ix2 k j)) + b (ix2 (0 : Fin 1) j))) zeroW := by
  unfold k1_pay1
  refine (maximumf_apply _ _ _).trans ?_
  refine congrArg₂ max ?_ rfl
  refine (addf_apply _ _ _).trans ?_
  refine congrArg₂ (· + ·) (by rw [shapeCast_self]) ?_
  refine (addf_apply _ _ _).trans ?_
  refine congrArg₂ (· + ·) ?_ (Cert.RowLayers.bias_apply b _ _ p j)
  rw [shapeCast_self]
  exact Cert.Dense.matmul_zero_apply rowsCols_96 none _ _ (ix2 p j)

end Cert.KernelIdeal.Regions
end
-- ==== Proof.Region0.lean ====
/-
  The node-transform region's first output, from row blocks to the whole array.

  The region runs over 10 points; point t holds rows 5000·t … 5000·t + 4999 of the [50000, 96] node features and the
  [96, 96] weights and [1, 96] bias whole. Its body leaves, at row p and feature j of the block,
  max (∑ k, x (p, k) · w (k, j) + b (0, j)) 0. Row p of block t is row 5000·t + p of the array and the feature
  coordinate is unchanged, so what point t writes back is block t of `convNode` of the arrays the region finds; the 10
  blocks cover every row (row r lies in block r / 5000), so the output array is `convNode` of them.
-/
import proofs.«107626_j56684978372724_2_alg».proof.Proof.RegionBlocks
noncomputable section
namespace Cert.KernelIdeal.Regions
open Idealize.ShloMosaic Idealize.ShloMosaic.TcCoe Idealize.SL.Sem Idealize.ShloMosaic.ValueIdx
open Cert.KernelIdeal Cert.KernelIdeal.Gen Cert.GraphLayer

variable (V : (c : Dev nD) → (b : Ref sig .tc) → Buf (Elt Ideal) ((c : Thread nD τ).loc b))

/-- The printed index maps, decided over the grid: the node features move with the output's row block, the weight
    and bias arrays are whole at every point, and the output's row-block index is in range. -/
theorem conv_idx : ∀ t : Fin cfg0.N, win0_0.index t (0 : Fin 2) = win0_5.index t (0 : Fin 2)
    ∧ win0_0.index t (1 : Fin 2) = 0 ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) ≤ 9 :=
  (by decide +kernel : ∀ t : Fin grid0.N, _)

/-- What point t writes back is block t of the rectified linear layer of the arrays the region finds. -/
theorem conv_flushed (c : Dev nD) (t : Fin cfg0.N) :
    (dat0 (F := Ideal) V c).flushed 5 t = ((cfg0.win 5).blk t).view.read (Elt Ideal)
      (convNode (V c main_arg0) (V c main_v0) (rowVec (V c main_v3))) := by
  show (cfg0.win 5).cut (grid0.coords t) ((dat0 V c).after 5 t) = _
  rw [after0_5]
  unfold out0_5
  rw [View.canon_unit_zero blk_hz]
  simp only [View.ld_unit_zero (S := S5000x96) blk_hz, View.ld_unit_zero (S := S96x96) blk_hz, View.ld_unit_zero (S := S1x96) blk_hz]
  obtain ⟨e0, e1, e2, e3, e4, e5, e6, e7⟩ := conv_idx t
  funext y
  revert y
  show ∀ y : S5000x96.Idx, k0_pay1 (iblk0 V c 0 t) (iblk0 V c 2 t) (iblk0 V c 3 t) y
    = convNode (V c main_arg0) (V c main_v0) (rowVec (V c main_v3)) (((cfg0.win 5).blk t).view.emb y)
  intro y
  obtain ⟨p, q, rfl⟩ : ∃ (p : Fin 5000) (q : Fin 96), y = ix2 p q := ⟨y 0, y 1, eq_ix2 y⟩
  refine (conv_payload _ _ _ p q).trans ?_
  have hq : (((cfg0.win 5).blk t).view.emb (ix2 p q)) 1 = q := by
    apply Fin.ext; show win0_5.index t (1 : Fin 2) * 96 + 1 * q.val = q.val; omega
  have hx : ∀ k : Fin 96, iblk0 V c 0 t (ix2 p k)
      = V c main_arg0 (ix2 ((((cfg0.win 5).blk t).view.emb (ix2 p q)) 0 : Fin 50000) k) := fun k => by
    show V c main_arg0 (((cfg0.win 0).blk t).view.emb (ix2 p k)) = _
    refine congrArg _ ?_
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 96 + 1 * k.val = k.val; omega
  have hw : ∀ k : Fin 96, iblk0 V c 2 t (ix2 k q) = V c main_v0 (ix2 k q) := fun k => by
    show V c main_v0 (((cfg0.win 2).blk t).view.emb (ix2 k q)) = _
    refine congrArg _ ?_
    funext a; apply Fin.ext
    match a with
    | ⟨0, _⟩ => show win0_2.index t (0 : Fin 2) * 96 + 1 * k.val = k.val; omega
    | ⟨1, _⟩ => show win0_2.index t (1 : Fin 2) * 96 + 1 * q.val = q.val; omega
  have hb : iblk0 V c 3 t (ix2 (0 : Fin 1) q) = V c main_v3 (ix2 (0 : Fin 1) q) := by
    show V c main_v3 (((cfg0.win 3).blk t).view.emb (ix2 0 q)) = _
    refine congrArg _ ?_
    funext a; apply Fin.ext
    match a with
    | ⟨0, _⟩ => show win0_3.index t (0 : Fin 2) * 1 + 1 * 0 = 0; omega
    | ⟨1, _⟩ => show win0_3.index t (1 : Fin 2) * 96 + 1 * q.val = q.val; omega
  unfold GraphLayer.convNode GraphLayer.affine GraphLayer.rowVec
  rw [hq, hb]
  refine congrArg₂ max (congrArg₂ (· + ·) (Finset.sum_congr rfl fun k _ => by rw [hx k, hw k]) rfl) rfl

/-- An index of the array is in point t's block iff each coordinate is in the block's range on its axis. -/
theorem conv_mem_blk (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v5_0).slice (win0_5.rect t)).set ↔ _
  rw [View.set_slice_whole, Rect.mem_set_unit]
  exact Iff.rfl

/-- Every row block is some point's. -/
theorem conv_onto : ∀ (q0 : Fin 10), ∃ t : Fin cfg0.N, win0_5.index t = ![q0.val, 0] :=
  (by decide +kernel : ∀ (q0 : Fin 10), ∃ t : Fin grid0.N, win0_5.index t = ![q0.val, 0])

/-- Row r of the array lies in the block of the point whose row-block index is r / 5000. -/
theorem conv_cover (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  obtain ⟨t, ht⟩ := conv_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [conv_mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 96 ≤ (i 1).val ∧ (i 1).val < win0_5.index t (1 : Fin 2) * 96 + 96; omega

/-- The array after the region: the rectified linear layer of the node features, one function of the arrays found. -/
theorem conv_array (c : Dev nD) : (dat0 (F := Ideal) V c).arrAt 5 cfg0.N
    = convNode (V c main_arg0) (V c main_v0) (rowVec (V c main_v3)) :=
  (dat0 (F := Ideal) V c).arrAt_eq_of_cover 5 _ (fun t _ => conv_flushed V c t) conv_cover

end Cert.KernelIdeal.Regions
end
-- ==== Proof.RegionAtt.lean ====
/-
  The node-transform region's second output, from row blocks to the whole array.

  Point t of the 10-point grid holds rows 5000·t … 5000·t + 4999 of the [50000, 64] embedding array and the [64, 96]
  weight array whole. Its body leaves, at row p and feature j of the block, ∑ k, x (p, k) · w (k, j). Row p of block t is
  row 5000·t + p of the array and the feature coordinate is unchanged, so what point t writes back is block t of
  `product` of the arrays the region finds; the 10 blocks cover every row (row r lies in block r / 5000), so the output
  array is `product` of them.
-/
import proofs.«107626_j56684978372724_2_alg».proof.Proof.RegionBlocks
noncomputable section
namespace Cert.KernelIdeal.Regions
open Idealize.ShloMosaic Idealize.ShloMosaic.TcCoe Idealize.SL.Sem Idealize.ShloMosaic.ValueIdx
open Cert.KernelIdeal Cert.KernelIdeal.Gen Cert.GraphLayer

variable (V : (c : Dev nD) → (b : Ref sig .tc) → Buf (Elt Ideal) ((c : Thread nD τ).loc b))

/-- The printed index maps, decided over the grid: the embeddings move with the output's row block, the weight
    array is whole at every point, and the output's row-block index is in range. -/
theorem att_idx : ∀ t : Fin cfg0.N, win0_1.index t (0 : Fin 2) = win0_6.index t (0 : Fin 2)
    ∧ win0_1.index t (1 : Fin 2) = 0 ∧ win0_6.index t (1 : Fin 2) = 0
    ∧ win0_4.index t (0 : Fin 2) = 0 ∧ win0_4.index t (1 : Fin 2) = 0
    ∧ win0_6.index t (0 : Fin 2) ≤ 9 :=
  (by decide +kernel : ∀ t : Fin grid0.N, _)

/-- What point t writes back is block t of the product of the arrays the region finds. -/
theorem att_flushed (c : Dev nD) (t : Fin cfg0.N) :
    (dat0 (F := Ideal) V c).flushed 6 t = ((cfg0.win 6).blk t).view.read (Elt Ideal)
      (product (V c main_arg1) (V c main_v2)) := by
  show (cfg0.win 6).cut (grid0.coords t) ((dat0 V c).after 6 t) = _
  rw [after0_6]
  unfold out0_6
  rw [View.canon_unit_zero blk_hz]
  simp only [View.ld_unit_zero (S := S5000x64) blk_hz, View.ld_unit_zero (S := S64x96) blk_hz]
  obtain ⟨e0, e1, e2, e3, e4, e5⟩ := att_idx t
  funext y
  revert y
  show ∀ y : S5000x96.Idx, k0_pay2 (iblk0 V c 1 t) (iblk0 V c 4 t) y
    = product (V c main_arg1) (V c main_v2) (((cfg0.win 6).blk t).view.emb y)
  intro y
  obtain ⟨p, q, rfl⟩ : ∃ (p : Fin 5000) (q : Fin 96), y = ix2 p q := ⟨y 0, y 1, eq_ix2 y⟩
  refine (att_payload _ _ p q).trans ?_
  have hq : (((cfg0.win 6).blk t).view.emb (ix2 p q)) 1 = q := by
    apply Fin.ext; show win0_6.index t (1 : Fin 2) * 96 + 1 * q.val = q.val; omega
  have hx : ∀ k : Fin 64, iblk0 V c 1 t (ix2 p k)
      = V c main_arg1 (ix2 ((((cfg0.win 6).blk t).view.emb (ix2 p q)) 0 : Fin 50000) k) := fun k => by
    show V c main_arg1 (((cfg0.win 1).blk t).view.emb (ix2 p k)) = _
    refine congrArg _ ?_
    funext a; apply Fin.ext
    match a with
    | ⟨0, _⟩ => show win0_1.index t (0 : Fin 2) * 5000 + 1 * p.val = win0_6.index t (0 : Fin 2) * 5000 + 1 * p.val; omega
    | ⟨1, _⟩ => show win0_1.index t (1 : Fin 2) * 64 + 1 * k.val = k.val; omega
  have hw : ∀ k : Fin 64, iblk0 V c 4 t (ix2 k q) = V c main_v2 (ix2 k q) := fun k => by
    show V c main_v2 (((cfg0.win 4).blk t).view.emb (ix2 k q)) = _
    refine congrArg _ ?_
    funext a; apply Fin.ext
    match a with
    | ⟨0, _⟩ => show win0_4.index t (0 : Fin 2) * 64 + 1 * k.val = k.val; omega
    | ⟨1, _⟩ => show win0_4.index t (1 : Fin 2) * 96 + 1 * q.val = q.val; omega
  unfold GraphLayer.product
  rw [hq]
  exact Finset.sum_congr rfl fun k _ => by rw [hx k, hw k]

/-- An index of the array is in point t's block iff each coordinate is in the block's range on its axis. -/
theorem att_mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v5_1).slice (win0_6.rect t)).set ↔ _
  rw [View.set_slice_whole, Rect.mem_set_unit]
  exact Iff.rfl

/-- Every row block is some point's. -/
theorem att_onto : ∀ (q0 : Fin 10), ∃ t : Fin cfg0.N, win0_6.index t = ![q0.val, 0] :=
  (by decide +kernel : ∀ (q0 : Fin 10), ∃ t : Fin grid0.N, win0_6.index t = ![q0.val, 0])

/-- Row r of the array lies in the block of the point whose row-block index is r / 5000. -/
theorem att_cover (i : S50000x96.Idx) :
    ∃ t : Fin cfg0.N, (cfg0.win 6).flush t = true ∧ i ∈ ((cfg0.win 6).blk t).view.set := by
  have hi0 : (i 0).val < 50000 := (i 0).isLt
  have hi1 : (i 1).val < 96 := (i 1).isLt
  obtain ⟨t, ht⟩ := att_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [att_mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- The array after the region: the product of the embeddings with the weights, one function of the arrays found. -/
theorem att_array (c : Dev nD) : (dat0 (F := Ideal) V c).arrAt 6 cfg0.N
    = product (V c main_arg1) (V c main_v2) :=
  (dat0 (F := Ideal) V c).arrAt_eq_of_cover 6 _ (fun t _ => att_flushed V c t) att_cover

end Cert.KernelIdeal.Regions
end
-- ==== Proof.RegionSelf.lean ====
/-
  The self-layer region, from row blocks to the whole array.

  Point t of the 10-point grid holds rows 5000·t … 5000·t + 4999 of the [50000, 96] node features and of the
  [50000, 96] aggregated messages, and the [96, 96] weights and [1, 96] bias whole. Its body leaves, at row p and
  feature j of the block, max (h (p, j) + (∑ k, x (p, k) · w (k, j) + b (0, j))) 0. Row p of block t is row 5000·t + p
  of both arrays and the feature coordinate is unchanged, so what point t writes back is block t of `selfRelu` of the
  arrays the region finds; the 10 blocks cover every row (row r lies in block r / 5000), so the output array is
  `selfRelu` of them.
-/
import proofs.«107626_j56684978372724_2_alg».proof.Proof.RegionBlocks
noncomputable section
namespace Cert.KernelIdeal.Regions
open Idealize.ShloMosaic Idealize.ShloMosaic.TcCoe Idealize.SL.Sem Idealize.ShloMosaic.ValueIdx
open Cert.KernelIdeal Cert.KernelIdeal.Gen Cert.GraphLayer

variable (V : (c : Dev nD) → (b : Ref sig .tc) → Buf (Elt Ideal) ((c : Thread nD τ).loc b))

/-- The printed index maps, decided over the grid: the node features and the aggregated messages move with the
    output's row block, the weight and bias arrays are whole at every point, and the output's row-block index is in range. -/
theorem self_idx : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 :=
  (by decide +kernel : ∀ t : Fin grid1.N, _)

/-- What point t writes back is block t of the self layer of the arrays the region finds. -/
theorem self_flushed (c : Dev nD) (t : Fin cfg1.N) :
    (dat1 (F := Ideal) V c).flushed 4 t = ((cfg1.win 4).blk t).view.read (Elt Ideal)
      (selfRelu (V c main_v31) (V c main_arg0) (V c main_v1) (rowVec (V c main_v4))) := by
  show (cfg1.win 4).cut (grid1.coords t) ((dat1 V c).after 4 t) = _
  rw [after1_4]
  unfold out1_4
  rw [View.canon_unit_zero blk_hz]
  simp only [View.ld_unit_zero (S := S5000x96) blk_hz, View.ld_unit_zero (S := S96x96) blk_hz, View.ld_unit_zero (S := S1x96) blk_hz]
  obtain ⟨e0, e1, e2, e3, e4, e5, e6, e7, e8, e9⟩ := self_idx t
  funext y
  revert y
  show ∀ y : S5000x96.Idx, k1_pay1 (iblk1 V c 0 t) (iblk1 V c 2 t) (iblk1 V c 3 t) (iblk1 V c 1 t) y
    = selfRelu (V c main_v31) (V c main_arg0) (V c main_v1) (rowVec (V c main_v4)) (((cfg1.win 4).blk t).view.emb y)
  intro y
  obtain ⟨p, q, rfl⟩ : ∃ (p : Fin 5000) (q : Fin 96), y = ix2 p q := ⟨y 0, y 1, eq_ix2 y⟩
  refine (self_payload _ _ _ _ p q).trans ?_
  have hq : (((cfg1.win 4).blk t).view.emb (ix2 p q)) 1 = q := by
    apply Fin.ext; show win1_4.index t (1 : Fin 2) * 96 + 1 * q.val = q.val; omega
  have hh : iblk1 V c 1 t (ix2 p q) = V c main_v31 (((cfg1.win 4).blk t).view.emb (ix2 p q)) := by
    show V c main_v31 (((cfg1.win 1).blk t).view.emb (ix2 p q)) = _
    refine congrArg _ ?_
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 96 + 1 * q.val = win1_4.index t (1 : Fin 2) * 96 + 1 * q.val; omega
  have hx : ∀ k : Fin 96, iblk1 V c 0 t (ix2 p k)
      = V c main_arg0 (ix2 ((((cfg1.win 4).blk t).view.emb (ix2 p q)) 0 : Fin 50000) k) := fun k => by
    show V c main_arg0 (((cfg1.win 0).blk t).view.emb (ix2 p k)) = _
    refine congrArg _ ?_
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 96 + 1 * k.val = k.val; omega
  have hw : ∀ k : Fin 96, iblk1 V c 2 t (ix2 k q) = V c main_v1 (ix2 k q) := fun k => by
    show V c main_v1 (((cfg1.win 2).blk t).view.emb (ix2 k q)) = _
    refine congrArg _ ?_
    funext a; apply Fin.ext
    match a with
    | ⟨0, _⟩ => show win1_2.index t (0 : Fin 2) * 96 + 1 * k.val = k.val; omega
    | ⟨1, _⟩ => show win1_2.index t (1 : Fin 2) * 96 + 1 * q.val = q.val; omega
  have hb : iblk1 V c 3 t (ix2 (0 : Fin 1) q) = V c main_v4 (ix2 (0 : Fin 1) q) := by
    show V c main_v4 (((cfg1.win 3).blk t).view.emb (ix2 0 q)) = _
    refine congrArg _ ?_
    funext a; apply Fin.ext
    match a with
    | ⟨0, _⟩ => show win1_3.index t (0 : Fin 2) * 1 + 1 * 0 = 0; omega
    | ⟨1, _⟩ => show win1_3.index t (1 : Fin 2) * 96 + 1 * q.val = q.val; omega
  unfold GraphLayer.selfRelu GraphLayer.affine GraphLayer.rowVec
  rw [hq, hb, hh]
  refine congrArg₂ max (congrArg₂ (· + ·) rfl (congrArg₂ (· + ·) (Finset.sum_congr rfl fun k _ => by rw [hx k, hw k]) rfl)) rfl

/-- An index of the array is in point t's block iff each coordinate is in the block's range on its axis. -/
theorem self_mem_blk (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v32).slice (win1_4.rect t)).set ↔ _
  rw [View.set_slice_whole, Rect.mem_set_unit]
  exact Iff.rfl

/-- Every row block is some point's. -/
theorem self_onto : ∀ (q0 : Fin 10), ∃ t : Fin cfg1.N, win1_4.index t = ![q0.val, 0] :=
  (by decide +kernel : ∀ (q0 : Fin 10), ∃ t : Fin grid1.N, win1_4.index t = ![q0.val, 0])

/-- Row r of the array lies in the block of the point whose row-block index is r / 5000. -/
theorem self_cover (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  obtain ⟨t, ht⟩ := self_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [self_mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 96 ≤ (i 1).val ∧ (i 1).val < win1_4.index t (1 : Fin 2) * 96 + 96; omega

/-- The array after the region: the messages plus the node's own linear layer, rectified — one function of the arrays found. -/
theorem self_array (c : Dev nD) : (dat1 (F := Ideal) V c).arrAt 4 cfg1.N
    = selfRelu (V c main_v31) (V c main_arg0) (V c main_v1) (rowVec (V c main_v4)) :=
  (dat1 (F := Ideal) V c).arrAt_eq_of_cover 4 _ (fun t _ => self_flushed V c t) self_cover

end Cert.KernelIdeal.Regions
end
-- ==== Proof.Region2.lean ====
/-
  The normalisation region, from row blocks to the whole array.

  The region runs over 10 points; point t holds rows 5000·t … 5000·t + 4999 of the [50000, 96] input and the four
  [1, 96] vectors (mean, variance, scale, shift) whole. Its body computes, at row p and feature j of the block,
  (x (p, j) − μ j) · rsqrt (v j + ε) · g j + b j. Row p of block t is row 5000·t + p of the array and the feature
  coordinate is unchanged, so what point t writes back is block t of `normalize` of the arrays the region finds;
  the 10 blocks cover every row (row r lies in block r / 5000), so the output array is `normalize` of them.
-/
import proofs.«107626_j56684978372724_2_alg».proof.Proof.Gen.KernelIdeal.Frame
import proofs.«107626_j56684978372724_2_alg».proof.Proof.Spec
import proofs.«107626_j56684978372724_2_alg».proof.Proof.LibRowLayers
noncomputable section
namespace Cert.KernelIdeal.Regions
open Idealize.ShloMosaic Idealize.ShloMosaic.TcCoe Idealize.SL.Sem Idealize.ShloMosaic.ValueIdx
open Cert.KernelIdeal Cert.KernelIdeal.Gen Cert.GraphLayer

variable (V : (c : Dev nD) → (b : Ref sig .tc) → Buf (Elt Ideal) ((c : Thread nD τ).loc b))

theorem norm_hz : (![0, 0] : Fin 2 → Nat) = fun _ => 0 := funext fun a => by fin_cases a <;> rfl

/-- The normalisation body at row p, feature j. -/
theorem norm_payload (x0 : Vec Ideal S5000x96 .f32) (vr mu g b : Vec Ideal S1x96 .f32) (p : Fin 5000) (j : Fin 96) :
    k2_pay1 x0 vr mu g b (ix2 p j)
      = (x0 (ix2 p j) - mu (ix2 (0 : Fin 1) j)) * Ideal.rsqrt (vr (ix2 (0 : Fin 1) j) + epsW) * g (ix2 (0 : Fin 1) j)
        + b (ix2 (0 : Fin 1) j) := by
  unfold k2_pay1
  refine (addf_apply _ _ _).trans ?_
  refine congrArg₂ (· + ·) ?_ (Cert.RowLayers.bias_apply b _ _ p j)
  refine (mulf_apply _ _ _).trans ?_
  refine congrArg₂ (· * ·) ?_ (Cert.RowLayers.bias_apply g _ _ p j)
  refine (mulf_apply _ _ _).trans ?_
  refine congrArg₂ (· * ·) ?_ ?_
  · refine (subf_apply _ _ _).trans ?_
    refine congrArg₂ (· - ·) ?_ (Cert.RowLayers.bias_apply mu _ _ p j)
    rw [shapeCast_self]
  · refine (broadcastTo_1b_ab_apply _ _ p j).trans ?_
    rw [shapeCast_self]
    rfl

theorem norm_idx : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 :=
  (by decide +kernel : ∀ t : Fin grid2.N, _)

/-- What point t writes back is block t of the normalisation of the arrays the region finds. -/
theorem norm_flushed (c : Dev nD) (t : Fin cfg2.N) :
    (dat2 (F := Ideal) V c).flushed 5 t = ((cfg2.win 5).blk t).view.read (Elt Ideal)
      (normalize (V c main_v32) (rowVec (V c main_v43)) (rowVec (V c main_v44)) (rowVec (V c main_v45)) (rowVec (V c main_v46))) := by
  show (cfg2.win 5).cut (grid2.coords t) ((dat2 V c).after 5 t) = _
  rw [after2_5]
  unfold out2_5
  rw [View.canon_unit_zero norm_hz]
  simp only [View.ld_unit_zero (S := S5000x96) norm_hz, View.ld_unit_zero (S := S1x96) norm_hz]
  obtain ⟨e0, e1, e2, e3, e4, e5, e6, e7, e8, e9, e10, e11⟩ := norm_idx t
  funext y
  revert y
  show ∀ y : S5000x96.Idx, k2_pay1 (iblk2 V c 0 t) (iblk2 V c 2 t) (iblk2 V c 1 t) (iblk2 V c 3 t) (iblk2 V c 4 t) y
    = normalize (V c main_v32) (rowVec (V c main_v43)) (rowVec (V c main_v44)) (rowVec (V c main_v45)) (rowVec (V c main_v46))
        (((cfg2.win 5).blk t).view.emb y)
  intro y
  obtain ⟨p, q, rfl⟩ : ∃ (p : Fin 5000) (q : Fin 96), y = ix2 p q := ⟨y 0, y 1, eq_ix2 y⟩
  refine (norm_payload _ _ _ _ _ p q).trans ?_
  have h0 : iblk2 V c 0 t (ix2 p q) = V c main_v32 (((cfg2.win 5).blk t).view.emb (ix2 p q)) := by
    show V c main_v32 (((cfg2.win 0).blk t).view.emb (ix2 p q)) = _
    refine congrArg _ ?_
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 96 + 1 * q.val = win2_5.index t (1 : Fin 2) * 96 + 1 * q.val; omega
  have hq : (((cfg2.win 5).blk t).view.emb (ix2 p q)) 1 = q := by
    apply Fin.ext; show win2_5.index t (1 : Fin 2) * 96 + 1 * q.val = q.val; omega
  have h1 : iblk2 V c 1 t (ix2 (0 : Fin 1) q) = V c main_v43 (ix2 (0 : Fin 1) q) := by
    show V c main_v43 (((cfg2.win 1).blk t).view.emb (ix2 0 q)) = _
    refine congrArg _ ?_
    funext a; apply Fin.ext
    match a with
    | ⟨0, _⟩ => show win2_1.index t (0 : Fin 2) * 1 + 1 * 0 = 0; omega
    | ⟨1, _⟩ => show win2_1.index t (1 : Fin 2) * 96 + 1 * q.val = q.val; omega
  have h2 : iblk2 V c 2 t (ix2 (0 : Fin 1) q) = V c main_v44 (ix2 (0 : Fin 1) q) := by
    show V c main_v44 (((cfg2.win 2).blk t).view.emb (ix2 0 q)) = _
    refine congrArg _ ?_
    funext a; apply Fin.ext
    match a with
    | ⟨0, _⟩ => show win2_2.index t (0 : Fin 2) * 1 + 1 * 0 = 0; omega
    | ⟨1, _⟩ => show win2_2.index t (1 : Fin 2) * 96 + 1 * q.val = q.val; omega
  have h3 : iblk2 V c 3 t (ix2 (0 : Fin 1) q) = V c main_v45 (ix2 (0 : Fin 1) q) := by
    show V c main_v45 (((cfg2.win 3).blk t).view.emb (ix2 0 q)) = _
    refine congrArg _ ?_
    funext a; apply Fin.ext
    match a with
    | ⟨0, _⟩ => show win2_3.index t (0 : Fin 2) * 1 + 1 * 0 = 0; omega
    | ⟨1, _⟩ => show win2_3.index t (1 : Fin 2) * 96 + 1 * q.val = q.val; omega
  have h4 : iblk2 V c 4 t (ix2 (0 : Fin 1) q) = V c main_v46 (ix2 (0 : Fin 1) q) := by
    show V c main_v46 (((cfg2.win 4).blk t).view.emb (ix2 0 q)) = _
    refine congrArg _ ?_
    funext a; apply Fin.ext
    match a with
    | ⟨0, _⟩ => show win2_4.index t (0 : Fin 2) * 1 + 1 * 0 = 0; omega
    | ⟨1, _⟩ => show win2_4.index t (1 : Fin 2) * 96 + 1 * q.val = q.val; omega
  rw [h0, h1, h2, h3, h4]
  unfold GraphLayer.normalize GraphLayer.rowVec
  rw [hq]

/-- An index of the array is in point t's block iff each coordinate is in the block's range on its axis. -/
theorem norm_mem_blk (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v47).slice (win2_5.rect t)).set ↔ _
  rw [View.set_slice_whole, Rect.mem_set_unit]
  exact Iff.rfl

/-- Every row block is some point's. -/
theorem norm_onto : ∀ (q0 : Fin 10), ∃ t : Fin cfg2.N, win2_5.index t = ![q0.val, 0] :=
  (by decide +kernel : ∀ (q0 : Fin 10), ∃ t : Fin grid2.N, win2_5.index t = ![q0.val, 0])

theorem norm_cover (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  obtain ⟨t, ht⟩ := norm_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [norm_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 96 ≤ (i 1).val ∧ (i 1).val < win2_5.index t (1 : Fin 2) * 96 + 96; omega

theorem norm_array (c : Dev nD) : (dat2 (F := Ideal) V c).arrAt 5 cfg2.N
    = normalize (V c main_v32) (rowVec (V c main_v43)) (rowVec (V c main_v44)) (rowVec (V c main_v45)) (rowVec (V c main_v46)) :=
  (dat2 (F := Ideal) V c).arrAt_eq_of_cover 5 _ (fun t _ => norm_flushed V c t) norm_cover

end Cert.KernelIdeal.Regions
end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.KValue.lean ====
/-
  The idealized kernel program's result, read off the run boundary by boundary.

  The program is: five host operations (three weight matrices transposed, two bias vectors given a unit axis); a
  first region that computes, per node, the rectified linear layer of the features (`convNode`) and the
  attention transform of the embeddings (`product`); a stretch of host operations that gathers those per-node rows
  at the two ends of every edge, forms the edge messages and adds them into their destination nodes; a second
  region that adds the node's own linear layer and rectifies; host operations that take the batch mean and variance
  per feature; and a third region that normalises. At each boundary the buffers the next step reads are named here
  as functions of the arguments; a buffer no step has written is read back to the previous boundary. The result is
  `layerOut` of the edge messages in their gathered form, `gatherMsg`; and a gather of whole rows at a column of
  node numbers reads the row of the node the edge points at, so the gathered form is `edgeMsgNode`.
-/
import proofs.«107626_j56684978372724_2_alg».proof.Proof.Gen.KernelIdeal.Frame
import proofs.«107626_j56684978372724_2_alg».proof.Proof.Shared
import proofs.«107626_j56684978372724_2_alg».proof.Proof.Region0
import proofs.«107626_j56684978372724_2_alg».proof.Proof.RegionAtt
import proofs.«107626_j56684978372724_2_alg».proof.Proof.RegionSelf
import proofs.«107626_j56684978372724_2_alg».proof.Proof.Region2
import proofs.«107626_j56684978372724_2_alg».proof.Proof.LibRowGather
import Idealize.ShloMosaic.Lib.StableHlo.Run
import Idealize.ShloMosaic.Lib.ValueLayout

noncomputable section

namespace Cert.KernelIdeal.RunValue

open Cert.KernelIdeal Cert.KernelIdeal.Gen Cert.GraphLayer
open Idealize.ShloMosaic Idealize.ShloMosaic.TcCoe Idealize.SL.Sem Idealize.ShloMosaic.StableHlo Idealize.ShloMosaic.ValueIdx

/-! ## Two general readings -/

/-- A vector given a leading unit axis and read back as a vector is the vector. -/
theorem rowVec_shapeCast {M : Nat} (v : (⟨1, ![M]⟩ : Shape).Idx → EReal)
    (h : (⟨1, ![M]⟩ : Shape).ShapeCasts ⟨2, ![1, M]⟩) : rowVec (shapeCast ⟨2, ![1, M]⟩ v h) = v := by
  funext j
  refine (shapeCast_a_1a_apply v h 0 (j 0 : Fin M)).trans ?_
  exact congrArg v (eq_ix1 j).symm

/-- A gather of whole feature rows at a column of node numbers reads, at edge `e` and feature `o`, the row of the
    node the edge points at. -/
theorem gather_rows_apply (x : FVec Ideal S50000x96 .f32) (I : IVec S800000x1 32) (e : Fin 800000) (o : Fin 96) :
    Host.gather gather_S50000x96_S800000x1_S800000x96_1_0_n_n_0_1_196 x I (ix2 e o) = x (ix2 (node I e) o) :=
  RowGather.gather_row_apply (by decide) gather_S50000x96_S800000x1_S800000x96_1_0_n_n_0_1_196_wf x I e o

/-- The edge messages in their gathered form: the attention rows of the two end nodes subtracted, times the
    rectified linear layer's row of the source node. -/
def gatherMsg (a cv : FVec Ideal S50000x96 .f32) (I J : IVec S800000x1 32) : FVec Ideal S800000x96 .f32 :=
  mulf (subf (Host.gather gather_S50000x96_S800000x1_S800000x96_1_0_n_n_0_1_196 a I)
      (Host.gather gather_S50000x96_S800000x1_S800000x96_1_0_n_n_0_1_196 a J))
    (Host.gather gather_S50000x96_S800000x1_S800000x96_1_0_n_n_0_1_196 cv I)

/-- The gathered form is the per-node form read at each edge's end nodes. -/
theorem gatherMsg_eq (a cv : FVec Ideal S50000x96 .f32) (I J : IVec S800000x1 32) :
    gatherMsg a cv I J = edgeMsgNode a cv I J := by
  funext i
  obtain ⟨e, o, rfl⟩ : ∃ (e : Fin 800000) (o : Fin 96), i = ix2 e o := ⟨i 0, i 1, eq_ix2 i⟩
  show (Host.gather gather_S50000x96_S800000x1_S800000x96_1_0_n_n_0_1_196 a I (ix2 e o)
      - Host.gather gather_S50000x96_S800000x1_S800000x96_1_0_n_n_0_1_196 a J (ix2 e o))
    * Host.gather gather_S50000x96_S800000x1_S800000x96_1_0_n_n_0_1_196 cv I (ix2 e o) = _
  rw [gather_rows_apply, gather_rows_apply, gather_rows_apply]
  rfl

variable (m : (ℓ : Loc nD τ sig) → Buf (Elt Ideal) ℓ) (ρ : Dev nD → PrngReg) (c : Dev nD)

/-- The arguments as launched, and the three transposed weight matrices. -/
abbrev A0 : FVec Ideal S50000x96 .f32 := m ((c.tc : Thread nD τ).loc main_arg0)
abbrev A1 : FVec Ideal S50000x64 .f32 := m ((c.tc : Thread nD τ).loc main_arg1)
abbrev A2 : IVec S800000 32 := m ((c.tc : Thread nD τ).loc main_arg2)
abbrev A3 : IVec S800000 32 := m ((c.tc : Thread nD τ).loc main_arg3)
abbrev A5 : FVec Ideal S96 .f32 := m ((c.tc : Thread nD τ).loc main_arg5)
abbrev A7 : FVec Ideal S96 .f32 := m ((c.tc : Thread nD τ).loc main_arg7)
abbrev A9 : FVec Ideal S96 .f32 := m ((c.tc : Thread nD τ).loc main_arg9)
abbrev A10 : FVec Ideal S96 .f32 := m ((c.tc : Thread nD τ).loc main_arg10)
abbrev T4 : FVec Ideal S96x96 .f32 := transpose S96x96 [1, 0] (m ((c.tc : Thread nD τ).loc main_arg4)) transposes_S96x96_S96x96_1_0
abbrev T6 : FVec Ideal S96x96 .f32 := transpose S96x96 [1, 0] (m ((c.tc : Thread nD τ).loc main_arg6)) transposes_S96x96_S96x96_1_0
abbrev T8 : FVec Ideal S64x96 .f32 := transpose S64x96 [1, 0] (m ((c.tc : Thread nD τ).loc main_arg8)) transposes_S96x64_S64x96_1_0

/-! ## After the first host operations -/

theorem w1_arg0 : W1 m ρ c (Proc.devRef .tc main_arg0) = (A0 m c) := by dsimp only [W1, hostOps0]; after_results
theorem w1_arg1 : W1 m ρ c (Proc.devRef .tc main_arg1) = (A1 m c) := by dsimp only [W1, hostOps0]; after_results
theorem w1_arg2 : W1 m ρ c (Proc.devRef .tc main_arg2) = (A2 m c) := by dsimp only [W1, hostOps0]; after_results
theorem w1_arg3 : W1 m ρ c (Proc.devRef .tc main_arg3) = (A3 m c) := by dsimp only [W1, hostOps0]; after_results
theorem w1_arg9 : W1 m ρ c (Proc.devRef .tc main_arg9) = (A9 m c) := by dsimp only [W1, hostOps0]; after_results
theorem w1_arg10 : W1 m ρ c (Proc.devRef .tc main_arg10) = (A10 m c) := by dsimp only [W1, hostOps0]; after_results
theorem w1_v0 : W1 m ρ c (Proc.devRef .tc main_v0) = (T4 m c) := by dsimp only [W1, hostOps0]; after_results
theorem w1_v1 : W1 m ρ c (Proc.devRef .tc main_v1) = (T6 m c) := by dsimp only [W1, hostOps0]; after_results
theorem w1_v2 : W1 m ρ c (Proc.devRef .tc main_v2) = (T8 m c) := by dsimp only [W1, hostOps0]; after_results
theorem w1_v3 : W1 m ρ c (Proc.devRef .tc main_v3) = shapeCast S1x96 (A5 m c) shapeCasts_S96_S1x96 := by
  dsimp only [W1, hostOps0]; after_results; rfl
theorem w1_v4 : W1 m ρ c (Proc.devRef .tc main_v4) = shapeCast S1x96 (A7 m c) shapeCasts_S96_S1x96 := by
  dsimp only [W1, hostOps0]; after_results; rfl

/-! ## After the first region -/

/-- The per-node rectified linear layer of the features. -/
theorem w2_conv : W2 m ρ c (Proc.devRef .tc main_v5_0) = convNode (A0 m c) (T4 m c) (A5 m c) := by
  refine (W2_arr m ρ c 5).trans ((Regions.conv_array (V1 m ρ) c).trans ?_)
  rw [show V1 m ρ c main_arg0 = (A0 m c) from w1_arg0 m ρ c, show V1 m ρ c main_v0 = (T4 m c) from w1_v0 m ρ c,
    show V1 m ρ c main_v3 = shapeCast S1x96 (A5 m c) shapeCasts_S96_S1x96 from w1_v3 m ρ c]
  exact congrArg (convNode (A0 m c) (T4 m c)) (rowVec_shapeCast _ _)

/-- The per-node attention transform of the embeddings. -/
theorem w2_att : W2 m ρ c (Proc.devRef .tc main_v5_1) = product (A1 m c) (T8 m c) := by
  refine (W2_arr m ρ c 6).trans ((Regions.att_array (V1 m ρ) c).trans ?_)
  rw [show V1 m ρ c main_arg1 = (A1 m c) from w1_arg1 m ρ c, show V1 m ρ c main_v2 = (T8 m c) from w1_v2 m ρ c]

theorem w2_arg0 : W2 m ρ c (Proc.devRef .tc main_arg0) = (A0 m c) :=
  ((W2_arr m ρ c 0).trans (((dat0 (V1 m ρ) c).arrAt_in 0 rfl _).trans (A_eq0 (V1 m ρ) c 0))).trans (w1_arg0 m ρ c)
theorem w2_arg2 : W2 m ρ c (Proc.devRef .tc main_arg2) = (A2 m c) := (W2_of_ne m ρ c main_arg2 (by decide)).trans (w1_arg2 m ρ c)
theorem w2_arg3 : W2 m ρ c (Proc.devRef .tc main_arg3) = (A3 m c) := (W2_of_ne m ρ c main_arg3 (by decide)).trans (w1_arg3 m ρ c)
theorem w2_arg9 : W2 m ρ c (Proc.devRef .tc main_arg9) = (A9 m c) := (W2_of_ne m ρ c main_arg9 (by decide)).trans (w1_arg9 m ρ c)
theorem w2_arg10 : W2 m ρ c (Proc.devRef .tc main_arg10) = (A10 m c) := (W2_of_ne m ρ c main_arg10 (by decide)).trans (w1_arg10 m ρ c)
theorem w2_v1 : W2 m ρ c (Proc.devRef .tc main_v1) = (T6 m c) := (W2_of_ne m ρ c main_v1 (by decide)).trans (w1_v1 m ρ c)
theorem w2_v4 : W2 m ρ c (Proc.devRef .tc main_v4) = shapeCast S1x96 (A7 m c) shapeCasts_S96_S1x96 :=
  (W2_of_ne m ρ c main_v4 (by decide)).trans (w1_v4 m ρ c)

/-! ## After the edge stretch -/

/-- The edge messages the kernel program forms, from the arguments. -/
abbrev kernelMsg : FVec Ideal S800000x96 .f32 :=
  gatherMsg (product (A1 m c) (T8 m c)) (convNode (A0 m c) (T4 m c) (A5 m c)) (rowIdx (A2 m c)) (rowIdx (A3 m c))

set_option maxHeartbeats 8000000 in
theorem w3_v31 : W3 m ρ c (Proc.devRef .tc main_v31) = aggregate (colIdx (A3 m c)) (kernelMsg m c) := by
  dsimp only [W3, hostOps1]
  after_results_simp
  rw [w2_arg3 m ρ c, w2_arg2 m ρ c, w2_att m ρ c, w2_conv m ρ c]
  rfl

set_option maxHeartbeats 8000000 in
theorem w3_arg0 : W3 m ρ c (Proc.devRef .tc main_arg0) = (A0 m c) := by
  dsimp only [W3, hostOps1]; after_results_simp; exact w2_arg0 m ρ c
set_option maxHeartbeats 8000000 in
theorem w3_arg9 : W3 m ρ c (Proc.devRef .tc main_arg9) = (A9 m c) := by
  dsimp only [W3, hostOps1]; after_results_simp; exact w2_arg9 m ρ c
set_option maxHeartbeats 8000000 in
theorem w3_arg10 : W3 m ρ c (Proc.devRef .tc main_arg10) = (A10 m c) := by
  dsimp only [W3, hostOps1]; after_results_simp; exact w2_arg10 m ρ c
set_option maxHeartbeats 8000000 in
theorem w3_v1 : W3 m ρ c (Proc.devRef .tc main_v1) = (T6 m c) := by
  dsimp only [W3, hostOps1]; after_results_simp; exact w2_v1 m ρ c
set_option maxHeartbeats 8000000 in
theorem w3_v4 : W3 m ρ c (Proc.devRef .tc main_v4) = shapeCast S1x96 (A7 m c) shapeCasts_S96_S1x96 := by
  dsimp only [W3, hostOps1]; after_results_simp; exact w2_v4 m ρ c

/-! ## After the second region -/

/-- The nodes after aggregation, self connection and rectifier. -/
abbrev kernelNodes : FVec Ideal S50000x96 .f32 := selfRelu (aggregate (colIdx (A3 m c)) (kernelMsg m c)) (A0 m c) (T6 m c) (A7 m c)

theorem w4_v32 : W4 m ρ c (Proc.devRef .tc main_v32) = kernelNodes m c := by
  refine (W4_arr m ρ c 4).trans ((Regions.self_array (V3 m ρ) c).trans ?_)
  rw [show V3 m ρ c main_v31 = aggregate (colIdx (A3 m c)) (kernelMsg m c) from w3_v31 m ρ c,
    show V3 m ρ c main_arg0 = (A0 m c) from w3_arg0 m ρ c, show V3 m ρ c main_v1 = (T6 m c) from w3_v1 m ρ c,
    show V3 m ρ c main_v4 = shapeCast S1x96 (A7 m c) shapeCasts_S96_S1x96 from w3_v4 m ρ c]
  exact congrArg (selfRelu (aggregate (colIdx (A3 m c)) (kernelMsg m c)) (A0 m c) (T6 m c)) (rowVec_shapeCast _ _)

theorem w4_arg9 : W4 m ρ c (Proc.devRef .tc main_arg9) = (A9 m c) := (W4_of_ne m ρ c main_arg9 (by decide)).trans (w3_arg9 m ρ c)
theorem w4_arg10 : W4 m ρ c (Proc.devRef .tc main_arg10) = (A10 m c) := (W4_of_ne m ρ c main_arg10 (by decide)).trans (w3_arg10 m ρ c)

/-! ## After the statistics stretch -/

set_option maxHeartbeats 8000000 in
theorem w5_v32 : W5 m ρ c (Proc.devRef .tc main_v32) = kernelNodes m c := by
  dsimp only [W5, hostOps2]; after_results_simp; exact w4_v32 m ρ c
set_option maxHeartbeats 8000000 in
theorem w5_v43 : W5 m ρ c (Proc.devRef .tc main_v43) = shapeCast S1x96 (meanOf (kernelNodes m c)) shapeCasts_S96_S1x96 := by
  dsimp only [W5, hostOps2]; after_results_simp; rw [w4_v32 m ρ c]; rfl
set_option maxHeartbeats 8000000 in
theorem w5_v44 : W5 m ρ c (Proc.devRef .tc main_v44) = shapeCast S1x96 (varOf (kernelNodes m c)) shapeCasts_S96_S1x96 := by
  dsimp only [W5, hostOps2]; after_results_simp; rw [w4_v32 m ρ c]; rfl
set_option maxHeartbeats 8000000 in
theorem w5_v45 : W5 m ρ c (Proc.devRef .tc main_v45) = shapeCast S1x96 (A9 m c) shapeCasts_S96_S1x96 := by
  dsimp only [W5, hostOps2]; after_results_simp; rw [w4_arg9 m ρ c]; rfl
set_option maxHeartbeats 8000000 in
theorem w5_v46 : W5 m ρ c (Proc.devRef .tc main_v46) = shapeCast S1x96 (A10 m c) shapeCasts_S96_S1x96 := by
  dsimp only [W5, hostOps2]; after_results_simp; rw [w4_arg10 m ρ c]; rfl

/-! ## After the third region: the result -/

/-- The kernel program's result buffer ends at the layer's result from the gathered edge messages. -/
theorem kernel_value : W6 m ρ c (Proc.devRef .tc main_v47) = layerOut (A0 m c) (A3 m c) (m ((c.tc : Thread nD τ).loc main_arg6)) (A7 m c) (A9 m c) (A10 m c) (kernelMsg m c) := by
  refine (W6_arr m ρ c 5).trans ((Regions.norm_array (V5 m ρ) c).trans ?_)
  rw [show V5 m ρ c main_v32 = kernelNodes m c from w5_v32 m ρ c,
    show V5 m ρ c main_v43 = shapeCast S1x96 (meanOf (kernelNodes m c)) shapeCasts_S96_S1x96 from w5_v43 m ρ c,
    show V5 m ρ c main_v44 = shapeCast S1x96 (varOf (kernelNodes m c)) shapeCasts_S96_S1x96 from w5_v44 m ρ c,
    show V5 m ρ c main_v45 = shapeCast S1x96 (A9 m c) shapeCasts_S96_S1x96 from w5_v45 m ρ c,
    show V5 m ρ c main_v46 = shapeCast S1x96 (A10 m c) shapeCasts_S96_S1x96 from w5_v46 m ρ c,
    rowVec_shapeCast, rowVec_shapeCast, rowVec_shapeCast, rowVec_shapeCast]
  rfl

end Cert.KernelIdeal.RunValue

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibRealSums.lean ====
/-
  Sums of products of real numbers inside the extended reals.

  The extended reals are not a semiring: a product does not distribute over a sum when an infinity is present. For
  real numbers it does. This file has

    * the coercion of a finite real sum is the sum of the coercions;
    * the exchange law behind "aggregate, then multiply by a matrix = multiply by the matrix, then aggregate": for
      real x (e, k), w (k), v (e) and any selection p of the e's,
          ∑ e ∈ p, (∑ k, x (e, k) · w (k)) · v (e)  =  ∑ k, (∑ e ∈ p, x (e, k) · v (e)) · w (k),
      stated on the extended reals with the selection written as an `if`;
    * the larger of two real numbers is a real number.

  Nothing here depends on a particular program.
-/
import Mathlib.Data.EReal.Basic
import Mathlib.Algebra.BigOperators.Ring.Finset
import Mathlib.Algebra.BigOperators.Group.Finset.Sigma
import Mathlib.Tactic.Ring

noncomputable section

namespace Cert.RealSums

open scoped BigOperators

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange law over the real numbers. -/
theorem exchange_real {ι κ : Type} [Fintype ι] [Fintype κ] (p : ι → Prop) [DecidablePred p]
    (x : ι → κ → ℝ) (w : κ → ℝ) (v : ι → ℝ) :
    ∑ e, (if p e then (∑ k, x e k * w k) * v e else 0) = ∑ k, (∑ e, if p e then x e k * v e else 0) * w k := by
  simp only [Finset.sum_mul]
  rw [Finset.sum_comm]
  refine Finset.sum_congr rfl fun e _ => ?_
  by_cases h : p e
  · simp only [if_pos h]
    refine Finset.sum_congr rfl fun k _ => by ring
  · simp only [if_neg h, zero_mul, Finset.sum_const_zero]

/-- The exchange law on the extended reals, for entries that are real numbers. -/
theorem exchange {ι κ : Type} [Fintype ι] [Fintype κ] (p : ι → Prop) [DecidablePred p]
    (x : ι → κ → ℝ) (w : κ → ℝ) (v : ι → ℝ) :
    ∑ e, (if p e then (∑ k, (x e k : EReal) * (w k : EReal)) * (v e : EReal) else 0)
      = ∑ k, (∑ e, if p e then (x e k : EReal) * (v e : EReal) else 0) * (w k : EReal) := by
  have hL : ∀ e, (if p e then (∑ k, (x e k : EReal) * (w k : EReal)) * (v e : EReal) else 0)
      = ((if p e then (∑ k, x e k * w k) * v e else 0 : ℝ) : EReal) := by
    intro e
    by_cases h : p e
    · rw [if_pos h, if_pos h, EReal.coe_mul, coe_sum]
      simp only [EReal.coe_mul]
    · rw [if_neg h, if_neg h, EReal.coe_zero]
  have hR : ∀ k, (∑ e, if p e then (x e k : EReal) * (v e : EReal) else 0) * (w k : EReal)
      = (((∑ e, if p e then x e k * v e else 0) * w k : ℝ) : EReal) := by
    intro k
    rw [EReal.coe_mul, coe_sum]
    congr 1
    refine Finset.sum_congr rfl fun e _ => ?_
    by_cases h : p e
    · rw [if_pos h, if_pos h, EReal.coe_mul]
    · rw [if_neg h, if_neg h, EReal.coe_zero]
  rw [Finset.sum_congr rfl fun e _ => hL e, Finset.sum_congr rfl fun k _ => hR k, ← coe_sum, ← coe_sum,
    exchange_real]

/-- The larger of two real numbers is one of them, so a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

end Cert.RealSums

end
-- ==== Proof.EdgeLaw.lean ====
/-
  The edge messages computed from per-node arrays are the edge messages computed per edge.

  For an edge from node `s` to node `d` and an output feature `o`, the per-edge form contracts the DIFFERENCE of the
  two embedding rows with the attention weights, `∑ k, (x (s, k) − x (d, k)) · w (k, o)`, while the per-node form
  contracts each row first and subtracts, `∑ k, x (s, k) · w (k, o) − ∑ k, x (d, k) · w (k, o)`. The two agree when the
  entries are real numbers (on the extended reals a product does not distribute over a difference at an infinity:
  this is where the finiteness of the inputs is used). The second factor — the rectified linear layer of the
  source node's features — is the same expression on both sides.
-/
import proofs.«107626_j56684978372724_2_alg».proof.Proof.Spec
import proofs.«107626_j56684978372724_2_alg».proof.Proof.LibRealValued
import proofs.«107626_j56684978372724_2_alg».proof.Proof.LibRealSums

noncomputable section

namespace Cert.GraphLayer

open Idealize.ShloMosaic Idealize.ShloMosaic.ValueIdx Cert.RealValued

/-- For real entries, contracting two rows and subtracting is contracting their difference. -/
theorem sum_sub_sum {K : Nat} (f g w : Fin K → EReal) (hf : ∀ k, IsReal (f k)) (hg : ∀ k, IsReal (g k))
    (hw : ∀ k, IsReal (w k)) :
    (∑ k, f k * w k) - (∑ k, g k * w k) = ∑ k, (f k - g k) * w k := by
  choose fr hfr using hf
  choose gr hgr using hg
  choose wr hwr using hw
  simp only [hfr, hgr, hwr]
  simp only [← EReal.coe_mul, ← EReal.coe_sub, ← Cert.RealSums.coe_sum]
  refine congrArg _ ?_
  rw [← Finset.sum_sub_distrib]
  exact Finset.sum_congr rfl fun k _ => by ring

/-- The per-node form of the edge messages is the per-edge form, for real embeddings and attention weights. -/
theorem edgeMsgNode_eq (x0 : (⟨2, ![50000, 96]⟩ : Shape).Idx → EReal) (x1 : (⟨2, ![50000, 64]⟩ : Shape).Idx → EReal)
    (waT : (⟨2, ![64, 96]⟩ : Shape).Idx → EReal) (wcT : (⟨2, ![96, 96]⟩ : Shape).Idx → EReal)
    (b : (⟨1, ![96]⟩ : Shape).Idx → EReal) (I J : IVec ⟨2, ![800000, 1]⟩ 32)
    (h1 : ∀ i, IsReal (x1 i)) (hw : ∀ i, IsReal (waT i)) :
    edgeMsgNode (product x1 waT) (convNode x0 wcT b) I J = edgeMsg x0 x1 waT wcT b I J := by
  funext i
  unfold edgeMsgNode edgeMsg
  refine congrArg₂ (· * ·) ?_ rfl
  exact sum_sub_sum (fun k => x1 (ix2 (node I (i 0 : Fin 800000)) k)) (fun k => x1 (ix2 (node J (i 0 : Fin 800000)) k))
    (fun k => waT (ix2 k (i 1 : Fin 96))) (fun k => h1 _) (fun k => h1 _) (fun k => hw _)

end Cert.GraphLayer

end
-- ==== Proof.RefValue.lean ====
/-
  The reference's result, as the layer's result from entry-by-entry edge messages.

  The reference computes three arrays by whole-array operations and joins them with a scatter-add and a per-feature
  mean and variance:
    * the edge messages: the difference of the two end nodes' gathered embedding rows, contracted with the attention
      weights, times the rectified linear layer of the gathered source features;
    * the aggregated messages plus the node's own linear layer, rectified;
    * the normalisation of that array by its own mean and variance.
  Each of the three is shown equal, entry by entry, to its formula: a contraction over one shared axis is the sum over
  that axis of left entry times right entry; a gathered row is the row of the node the edge points at (the index read
  signed and kept inside 0 … 49999); a per-feature vector repeated down the rows is read at its feature; a scalar word
  repeated over an array is that word. The scatter-add, the index columns, the mean and the variance are never opened:
  the reference's term is literally their composition with the three arrays.
  No entry needs to be finite: both sides of every equation are the same sums and products in the same order.
-/
import proofs.«107626_j56684978372724_2_alg».proof.Proof.Gen.ReferenceIdeal.Read
import proofs.«107626_j56684978372724_2_alg».proof.Proof.Shared
import proofs.«107626_j56684978372724_2_alg».proof.Proof.LibRowsCols
import proofs.«107626_j56684978372724_2_alg».proof.Proof.LibRowGather
noncomputable section
namespace Cert.ReferenceIdeal.RefValue
open Idealize.ShloMosaic Idealize.ShloMosaic.TcCoe Idealize.SL.Sem Idealize.ShloMosaic.ValueIdx
open Cert.ReferenceIdeal Cert.ReferenceIdeal.Gen Cert.GraphLayer

/-- The edge messages as the reference computes them: the attention factor (the difference of the two end nodes'
    gathered embedding rows times the attention weights) times the rectified linear layer of the gathered source
    features. -/
def msgP (x0 : FVec Ideal S50000x96 .f32) (x1 : FVec Ideal S50000x64 .f32) (x2 x3 : IVec S800000 32)
    (x4 : FVec Ideal S96x96 .f32) (x5 : FVec Ideal S96 .f32) (x8 : FVec Ideal S96x64 .f32) : FVec Ideal S800000x96 .f32 :=
  mulf (Host.dotGeneral dot_S800000x64_S64x96_S800000x96_1_0_0_1_n_n none
      (subf (Host.gather gather_S50000x64_S800000x1_S800000x64_1_0_n_n_0_1_164 x1 (rowIdx x2))
        (Host.gather gather_S50000x64_S800000x1_S800000x64_1_0_n_n_0_1_164 x1 (rowIdx x3)))
      (transpose S64x96 [1, 0] x8 transposes_S96x64_S64x96_1_0))
    (maximumf (addf (Host.dotGeneral dot_S800000x96_S96x96_S800000x96_1_0_0_1_n_n none
          (Host.gather gather_S50000x96_S800000x1_S800000x96_1_0_n_n_0_1_196 x0 (rowIdx x2))
          (transpose S96x96 [1, 0] x4 transposes_S96x96_S96x96_1_0))
        (broadcastInDim S800000x96 ![0, 1] bcast_S1x96_S800000x96_0_1 (broadcastInDim S1x96 ![1] bcast_S96_S1x96_1 x5)))
      (broadcastInDim S800000x96 ![] bcast_S_S800000x96 (constant (F := Ideal) S_ .f32 0x00000000#32)))

/-- The aggregated messages `H` plus the node's own linear layer, rectified, as the reference computes it. -/
def selfP (H x0 : FVec Ideal S50000x96 .f32) (x6 : FVec Ideal S96x96 .f32) (x7 : FVec Ideal S96 .f32) :
    FVec Ideal S50000x96 .f32 :=
  maximumf (addf H (addf (Host.dotGeneral dot_S50000x96_S96x96_S50000x96_1_0_0_1_n_n none x0
          (transpose S96x96 [1, 0] x6 transposes_S96x96_S96x96_1_0))
        (broadcastInDim S50000x96 ![0, 1] bcast_S1x96_S50000x96_0_1 (broadcastInDim S1x96 ![1] bcast_S96_S1x96_1 x7))))
    (broadcastInDim S50000x96 ![] bcast_S_S50000x96 (constant (F := Ideal) S_ .f32 0x00000000#32))

/-- The normalisation of `p` from a mean `μ` and a variance `v` per feature, as the reference computes it. -/
def normP (p : FVec Ideal S50000x96 .f32) (μ v x9 x10 : FVec Ideal S96 .f32) : FVec Ideal S50000x96 .f32 :=
  addf (mulf (mulf (subf p (spread μ))
        (spread (Host.rsqrt (addf v (broadcastInDim S96 ![] bcast_S_S96 (constant (F := Ideal) S_ .f32 0x3727C5AC#32))))))
      (spread x9))
    (spread x10)

/-- A per-feature vector repeated down the 50000 rows, read at an entry. -/
theorem spread_apply (v : FVec Ideal S96 .f32) (n : Fin 50000) (o : Fin 96) : spread v (ix2 n o) = v (ix1 o) := by
  unfold spread
  refine (broadcastInDim_apply _ bcast_S1x96_S50000x96_0_1 _ (ix2 n o) (ix2 (0 : Fin 1) o) (fun a => match a with
    | ⟨0, _⟩ => by show 0 = if (1 : Nat) = 1 then 0 else n.val; rw [if_pos rfl]
    | ⟨1, _⟩ => by show o.val = if (96 : Nat) = 1 then 0 else o.val; rw [if_neg (by decide)])).trans ?_
  exact broadcastInDim_apply _ bcast_S96_S1x96_1 v (ix2 (0 : Fin 1) o) (ix1 o) (fun a => match a with
    | ⟨0, _⟩ => by show o.val = if (96 : Nat) = 1 then 0 else o.val; rw [if_neg (by decide)])

/-- The same down the 800000 edge rows. -/
theorem spreadE_apply (v : FVec Ideal S96 .f32) (e : Fin 800000) (o : Fin 96) :
    broadcastInDim S800000x96 ![0, 1] bcast_S1x96_S800000x96_0_1 (broadcastInDim S1x96 ![1] bcast_S96_S1x96_1 v) (ix2 e o)
      = v (ix1 o) := by
  refine (broadcastInDim_apply _ bcast_S1x96_S800000x96_0_1 _ (ix2 e o) (ix2 (0 : Fin 1) o) (fun a => match a with
    | ⟨0, _⟩ => by show 0 = if (1 : Nat) = 1 then 0 else e.val; rw [if_pos rfl]
    | ⟨1, _⟩ => by show o.val = if (96 : Nat) = 1 then 0 else o.val; rw [if_neg (by decide)])).trans ?_
  exact broadcastInDim_apply _ bcast_S96_S1x96_1 v (ix2 (0 : Fin 1) o) (ix1 o) (fun a => match a with
    | ⟨0, _⟩ => by show o.val = if (96 : Nat) = 1 then 0 else o.val; rw [if_neg (by decide)])

/-- A scalar f32 word repeated over a whole array is that word at every entry. -/
theorem word_apply {t : Shape} (dims : Fin S_.rank → Fin t.rank) (h : S_.BroadcastsInDim t dims) (b : BitVec 32) (j : t.Idx) :
    broadcastInDim t dims h (constant (F := Ideal) S_ .f32 b) j = Ideal.ofBits .f32 b :=
  broadcastInDim_apply dims h _ j ix0 (fun a => a.elim0)

/-- The reference's contraction of the node features with the self weights is "rows times columns". -/
theorem rc_self : Cert.Dense.RowsCols dot_S50000x96_S96x96_S50000x96_1_0_0_1_n_n :=
  ⟨rfl, rfl, Read.lhs_main_v35_0, Read.lhs_main_v35_1, Read.rhs_main_v35_0, Read.rhs_main_v35_1⟩

/-- So is the contraction of the embedding differences with the attention weights. -/
theorem rc_att : Cert.Dense.RowsCols dot_S800000x64_S64x96_S800000x96_1_0_0_1_n_n :=
  ⟨rfl, rfl, Read.lhs_main_v16_0, Read.lhs_main_v16_1, Read.rhs_main_v16_0, Read.rhs_main_v16_1⟩

/-- So is the contraction of the gathered source features with the message weights. -/
theorem rc_msg : Cert.Dense.RowsCols dot_S800000x96_S96x96_S800000x96_1_0_0_1_n_n :=
  ⟨rfl, rfl, Read.lhs_main_v25_0, Read.lhs_main_v25_1, Read.rhs_main_v25_0, Read.rhs_main_v25_1⟩

/-- The normalisation as the reference computes it is the entry-by-entry formula. -/
theorem normP_eq (p : FVec Ideal S50000x96 .f32) (μ v x9 x10 : FVec Ideal S96 .f32) :
    normP p μ v x9 x10 = normalize p μ v x9 x10 := by
  funext i
  obtain ⟨n, o, rfl⟩ : ∃ (n : Fin 50000) (o : Fin 96), i = ix2 n o := ⟨i 0, i 1, eq_ix2 i⟩
  unfold normP
  rw [addf_apply, mulf_apply, mulf_apply, subf_apply, spread_apply, spread_apply, spread_apply, spread_apply]
  show (p (ix2 n o) - μ (ix1 o)) * Ideal.rsqrt (v (ix1 o)
      + broadcastInDim S96 ![] bcast_S_S96 (constant (F := Ideal) S_ .f32 0x3727C5AC#32) (ix1 o)) * x9 (ix1 o) + x10 (ix1 o) = _
  rw [word_apply]
  rfl

/-- The rectified sum of the aggregated messages and the node's own linear layer, entry by entry. -/
theorem selfP_eq (H x0 : FVec Ideal S50000x96 .f32) (x6 : FVec Ideal S96x96 .f32) (x7 : FVec Ideal S96 .f32) :
    selfP H x0 x6 x7 = selfRelu H x0 (transpose S96x96 [1, 0] x6 transposes_S96x96_S96x96_1_0) x7 := by
  funext i
  obtain ⟨n, o, rfl⟩ : ∃ (n : Fin 50000) (o : Fin 96), i = ix2 n o := ⟨i 0, i 1, eq_ix2 i⟩
  unfold selfP
  rw [maximumf_apply, addf_apply, addf_apply, Cert.Dense.dotGeneral_apply rc_self, word_apply]
  exact congrArg (fun t => max (H (ix2 n o) + (Cert.Dense.rowsTimes x0 _ (ix2 n o) + t)) zeroW) (spread_apply x7 n o)

/-- A gathered row of the embeddings is the row of the node the edge points at. -/
theorem gather64_apply (x1 : FVec Ideal S50000x64 .f32) (I : IVec S800000x1 32) (e : Fin 800000) (k : Fin 64) :
    Host.gather gather_S50000x64_S800000x1_S800000x64_1_0_n_n_0_1_164 x1 I (ix2 e k) = x1 (ix2 (node I e) k) :=
  RowGather.gather_row_apply (N := 50000) (R := 800000) (C := 64) (by decide)
    gather_S50000x64_S800000x1_S800000x64_1_0_n_n_0_1_164_wf x1 I e k

/-- A gathered row of the node features, likewise. -/
theorem gather96_apply (x0 : FVec Ideal S50000x96 .f32) (I : IVec S800000x1 32) (e : Fin 800000) (k : Fin 96) :
    Host.gather gather_S50000x96_S800000x1_S800000x96_1_0_n_n_0_1_196 x0 I (ix2 e k) = x0 (ix2 (node I e) k) :=
  RowGather.gather_row_apply (N := 50000) (R := 800000) (C := 96) (by decide)
    gather_S50000x96_S800000x1_S800000x96_1_0_n_n_0_1_196_wf x0 I e k

/-- The edge messages as the reference computes them are the entry-by-entry formula. -/
theorem msgP_eq (x0 : FVec Ideal S50000x96 .f32) (x1 : FVec Ideal S50000x64 .f32) (x2 x3 : IVec S800000 32)
    (x4 : FVec Ideal S96x96 .f32) (x5 : FVec Ideal S96 .f32) (x8 : FVec Ideal S96x64 .f32) :
    msgP x0 x1 x2 x3 x4 x5 x8
      = edgeMsg x0 x1 (transpose S64x96 [1, 0] x8 transposes_S96x64_S64x96_1_0)
          (transpose S96x96 [1, 0] x4 transposes_S96x96_S96x96_1_0) x5 (rowIdx x2) (rowIdx x3) := by
  funext i
  obtain ⟨e, o, rfl⟩ : ∃ (e : Fin 800000) (o : Fin 96), i = ix2 e o := ⟨i 0, i 1, eq_ix2 i⟩
  unfold msgP
  rw [mulf_apply, maximumf_apply, addf_apply, Cert.Dense.dotGeneral_apply rc_att, Cert.Dense.dotGeneral_apply rc_msg,
    word_apply, spreadE_apply]
  unfold Cert.Dense.rowsTimes edgeMsg
  refine congrArg₂ (· * ·) (Finset.sum_congr rfl fun k _ => ?_)
    (congrArg (fun t => max (t + x5 (ix1 o)) zeroW) (Finset.sum_congr rfl fun k _ => ?_))
  · rw [subf_apply, gather64_apply, gather64_apply]
  · rw [gather96_apply]

/-- The reference's result term is the composition of the three computed pieces with the shared scatter-add, mean and
    variance: the same term, only with its parts named. -/
theorem assemble (m : (ℓ : Loc nD τ sig) → Buf (Elt Ideal) ℓ) (c : Dev nD) :
    Cert.ReferenceIdeal.Value.res_main_v65 (F := Ideal) m c
      = normP (selfP (aggregate (colIdx (m ((c.tc : Thread nD τ).loc main_arg3)))
            (msgP (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg8))))
          (m ((c.tc : Thread nD τ).loc main_arg0)) (m ((c.tc : Thread nD τ).loc main_arg6)) (m ((c.tc : Thread nD τ).loc main_arg7)))
        (meanOf (selfP (aggregate (colIdx (m ((c.tc : Thread nD τ).loc main_arg3)))
            (msgP (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg8))))
          (m ((c.tc : Thread nD τ).loc main_arg0)) (m ((c.tc : Thread nD τ).loc main_arg6)) (m ((c.tc : Thread nD τ).loc main_arg7))))
        (varOf (selfP (aggregate (colIdx (m ((c.tc : Thread nD τ).loc main_arg3)))
            (msgP (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg8))))
          (m ((c.tc : Thread nD τ).loc main_arg0)) (m ((c.tc : Thread nD τ).loc main_arg6)) (m ((c.tc : Thread nD τ).loc main_arg7))))
        (m ((c.tc : Thread nD τ).loc main_arg9)) (m ((c.tc : Thread nD τ).loc main_arg10)) := by
  unfold Cert.ReferenceIdeal.Value.res_main_v65
  rfl

/-- The reference's result is the layer's result from the entry-by-entry edge messages: its term is the composition of the
    three computed pieces above with the shared scatter-add, mean and variance, and each piece is its formula. -/
theorem ref_value (m : (ℓ : Loc nD τ sig) → Buf (Elt Ideal) ℓ) (c : Dev nD) :
    Cert.ReferenceIdeal.Value.res_main_v65 (F := Ideal) m c
      = layerOut (m ((c.tc : Thread nD τ).loc main_arg0)) (m ((c.tc : Thread nD τ).loc main_arg3))
          (m ((c.tc : Thread nD τ).loc main_arg6)) (m ((c.tc : Thread nD τ).loc main_arg7))
          (m ((c.tc : Thread nD τ).loc main_arg9)) (m ((c.tc : Thread nD τ).loc main_arg10))
          (edgeMsg (m ((c.tc : Thread nD τ).loc main_arg0)) (m ((c.tc : Thread nD τ).loc main_arg1))
            (transpose S64x96 [1, 0] (m ((c.tc : Thread nD τ).loc main_arg8)) transposes_S96x64_S64x96_1_0)
            (transpose S96x96 [1, 0] (m ((c.tc : Thread nD τ).loc main_arg4)) transposes_S96x96_S96x96_1_0)
            (m ((c.tc : Thread nD τ).loc main_arg5))
            (rowIdx (m ((c.tc : Thread nD τ).loc main_arg2))) (rowIdx (m ((c.tc : Thread nD τ).loc main_arg3)))) := by
  refine (assemble m c).trans ?_
  rw [msgP_eq, selfP_eq, normP_eq]
  rfl

end Cert.ReferenceIdeal.RefValue
end
-- ==== Proof.RealInputs.lean ====
/-
  The precondition read back: every float argument has all entries of finite absolute value, so in particular the
  embeddings and the attention weights are real numbers.

  The precondition is one conjunction of eleven conjuncts, one per float argument, each "all entries have |a| < +inf".
  Taking the conjunction apart gives the conjunct of the embeddings (the second) and of the attention weights (the ninth);
  each of them says that every entry of its array is a real number.
-/
import proofs.«107626_j56684978372724_2_alg».proof.Proof.Gen.ReferenceIdeal
import proofs.«107626_j56684978372724_2_alg».proof.Proof.LibRealValued
import proofs.«107626_j56684978372724_2_alg».proof.Proof.Gen.Pre_finite_inputs
noncomputable section
namespace Cert.ReferenceIdeal.RefValue
open Idealize.ShloMosaic Idealize.ShloMosaic.TcCoe Idealize.SL.Sem Idealize.ShloMosaic.ValueIdx
open Cert.ReferenceIdeal Cert.ReferenceIdeal.Gen

/-- From the precondition on the arguments: the embeddings and the attention weights are real numbers. -/
theorem real_of_pre [Cert.Pre_finite_inputs.Facts] (x0 : FVec Ideal S50000x96 .f32) (x1 : FVec Ideal S50000x64 .f32) (x2 x3 : IVec S800000 32)
    (x4 : FVec Ideal S96x96 .f32) (x5 : FVec Ideal S96 .f32) (x6 : FVec Ideal S96x96 .f32) (x7 : FVec Ideal S96 .f32)
    (x8 : FVec Ideal S96x64 .f32) (x9 x10 : FVec Ideal S96 .f32)
    (h : Cert.Pre_finite_inputs.fn (F := Ideal) x0 x1 x2 x3 x4 x5 x6 x7 x8 x9 x10 = fun _ => 1#1) :
    (∀ i, Cert.RealValued.IsReal (x1 i)) ∧ (∀ i, Cert.RealValued.IsReal (x8 i)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨_, h1⟩, _⟩, _⟩, _⟩, _⟩, h8⟩, _⟩, _⟩ := h0
  exact ⟨Cert.RealValued.all_isReal x1 _ _ _ _ h1, Cert.RealValued.all_isReal x8 _ _ _ _ h8⟩
end Cert.ReferenceIdeal.RefValue
end
-- ==== Proof.lean ====
/-
  A graph layer — attention-gated messages along 800000 edges summed into 50000 nodes, a self connection, a
  rectifier and a batch normalisation — computed two ways, and the two results equal on the extended reals.

  The reference gathers, for every edge, the embedding rows of its two end nodes and the feature row of its source
  node, and applies the attention weights and the linear layer per edge. The kernel program applies them per node
  first (a pipelined region over blocks of 5000 rows) and gathers the transformed rows. A rectified linear layer
  commutes with picking a row; the attention transform of a difference of two rows is the difference of their
  transforms when the entries are real numbers, which the precondition (every float input finite) provides for the
  embeddings and the attention weights. From the edge messages on, both programs apply the same operations: the
  scatter-add into the destination nodes, the node's own linear layer and rectifier (the kernel program's second
  region), the batch mean and variance, and the normalisation (its third region).

  The three frames: the two kernel programs' from the pipelined runs, the reference's from its run with the result
  dropped. The idealization rewrote no operation, so there is nothing to preserve.
-/
import proofs.«107626_j56684978372724_2_alg».proof.Defs
import proofs.«107626_j56684978372724_2_alg».proof.Proof.Gen.Kernel
import proofs.«107626_j56684978372724_2_alg».proof.Proof.Gen.Kernel.Skeleton
import proofs.«107626_j56684978372724_2_alg».proof.Proof.Gen.Kernel.Launch
import proofs.«107626_j56684978372724_2_alg».proof.Proof.Gen.Kernel.Points
import proofs.«107626_j56684978372724_2_alg».proof.Proof.Gen.Kernel.Frame
import proofs.«107626_j56684978372724_2_alg».proof.Proof.Gen.KernelIdeal
import proofs.«107626_j56684978372724_2_alg».proof.Proof.Gen.KernelIdeal.Skeleton
import proofs.«107626_j56684978372724_2_alg».proof.Proof.Gen.KernelIdeal.Launch
import proofs.«107626_j56684978372724_2_alg».proof.Proof.Gen.KernelIdeal.Points
import proofs.«107626_j56684978372724_2_alg».proof.Proof.Gen.KernelIdeal.Frame
import proofs.«107626_j56684978372724_2_alg».proof.Proof.Gen.ReferenceIdeal
import proofs.«107626_j56684978372724_2_alg».proof.Proof.Gen.ReferenceIdeal.Run
import proofs.«107626_j56684978372724_2_alg».proof.Proof.Gen.ReferenceIdeal.Read
import proofs.«107626_j56684978372724_2_alg».proof.Proof.Gen.Pre_finite_inputs
import proofs.«107626_j56684978372724_2_alg».proof.Proof.KRun
import proofs.«107626_j56684978372724_2_alg».proof.Proof.KValue
import proofs.«107626_j56684978372724_2_alg».proof.Proof.EdgeLaw
import proofs.«107626_j56684978372724_2_alg».proof.Proof.RefValue
import proofs.«107626_j56684978372724_2_alg».proof.Proof.RealInputs
import Idealize.ShloMosaic.Adequacy
import Idealize.ShloMosaic.Init
import Idealize.ShloMosaic.Lib.ValueLayout

noncomputable section

namespace Cert.Proof

open Idealize.ShloMosaic Idealize.ShloMosaic.TcCoe Idealize.SL.Sem Idealize.ShloMosaic.ValueIdx Cert.GraphLayer

/-- A transposed matrix of real numbers is a matrix of real numbers. -/
theorem real_transpose {a b : ℕ} (x : (⟨2, ![a, b]⟩ : Shape).Idx → EReal)
    (h : (⟨2, ![a, b]⟩ : Shape).Transposes [1, 0] ⟨2, ![b, a]⟩) (hx : ∀ i, Cert.RealValued.IsReal (x i))
    (i : (⟨2, ![b, a]⟩ : Shape).Idx) : Cert.RealValued.IsReal (transpose ⟨2, ![b, a]⟩ [1, 0] x h i) := by
  obtain ⟨p, q, rfl⟩ : ∃ (p : Fin b) (q : Fin a), i = ix2 p q := ⟨i 0, i 1, eq_ix2 i⟩
  rw [transpose_ix2_apply]
  exact hx _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's edge messages are the reference's, for arguments that satisfy the precondition. -/
theorem kernelMsg_eq (m : (ℓ : Loc Cert.KernelIdeal.nD Cert.KernelIdeal.τ Cert.KernelIdeal.sig) → Buf (Elt Ideal) ℓ)
    (c : Dev Cert.KernelIdeal.nD) (hpre : Cert.Pre_KernelIdeal m) :
    Cert.KernelIdeal.RunValue.kernelMsg m c
      = edgeMsg (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (transpose Cert.ReferenceIdeal.S64x96 [1, 0] (m ((c.tc : Thread Cert.KernelIdeal.nD Cert.KernelIdeal.τ).loc Cert.KernelIdeal.main_arg8)) Cert.ReferenceIdeal.Gen.transposes_S96x64_S64x96_1_0)
          (transpose Cert.ReferenceIdeal.S96x96 [1, 0] (m ((c.tc : Thread Cert.KernelIdeal.nD Cert.KernelIdeal.τ).loc Cert.KernelIdeal.main_arg4)) Cert.ReferenceIdeal.Gen.transposes_S96x96_S96x96_1_0)
          (m ((c.tc : Thread Cert.KernelIdeal.nD Cert.KernelIdeal.τ).loc Cert.KernelIdeal.main_arg5))
          (rowIdx (m ((c.tc : Thread Cert.KernelIdeal.nD Cert.KernelIdeal.τ).loc Cert.KernelIdeal.main_arg2)))
          (rowIdx (m ((c.tc : Thread Cert.KernelIdeal.nD Cert.KernelIdeal.τ).loc Cert.KernelIdeal.main_arg3))) := by
  obtain ⟨h1, h8⟩ := Cert.ReferenceIdeal.RefValue.real_of_pre _ _ _ _ _ _ _ _ _ _ _ (hpre c)
  unfold Cert.KernelIdeal.RunValue.kernelMsg
  rw [Cert.KernelIdeal.RunValue.gatherMsg_eq]
  exact edgeMsgNode_eq _ _ _ _ _ _ _ h1 (real_transpose _ _ h8)

/-- At `Ideal` both programs end with the layer's result from the per-edge messages of arguments that agree. -/
theorem algebraic : Cert.algebraic_KernelIdeal_ReferenceIdeal := by
  intro m ρ m' ρ' hpre hagree
  refine ⟨fun c => layerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (Cert.KernelIdeal.RunValue.kernelMsg m c), ?_, ?_⟩
  · exact (θ_run Cert.KernelIdeal.defs _ _).mono
      (fun r h c => ⟨(h c).1.trans (Cert.KernelIdeal.RunValue.kernel_value m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    beta_reduce
    rw [Cert.ReferenceIdeal.RefValue.ref_value, kernelMsg_eq m c hpre,
      (hagree c).1, (hagree c).2.1, (hagree c).2.2.1, (hagree c).2.2.2.1, (hagree c).2.2.2.2.1,
      (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
